-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S16x512x32 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S512 : Shape := ⟨1, ![512]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S4096x16384 .f32) (main_arg1 : FVec F S512 .f32) (main_arg2 : FVec F S512 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S4096x16384 : Shape := ⟨2, ![4096, 16384]⟩
abbrev S512 : Shape := ⟨1, ![512]⟩
abbrev S4096x512x32 : Shape := ⟨3, ![4096, 512, 32]⟩
abbrev S32x512x32 : Shape := ⟨3, ![32, 512, 32]⟩
abbrev S32x512 : Shape := ⟨2, ![32, 512]⟩
abbrev S_ : Shape := ⟨0, ![]⟩
abbrev S16x512x32 : Shape := ⟨3, ![16, 512, 32]⟩
abbrev S1x512x1 : Shape := ⟨3, ![1, 512, 1]⟩

abbrev nBuf : Space → Nat
  | .hbm => 37
  | .vmem => 10
  | .smem => 0
  | _ => 0

abbrev bufTy : (tb : Table) → Fin (tcTables nBuf tb) → BufTy
  | .hbm, ⟨0, _⟩ => ⟨S4096x16384, .f32⟩
  | .hbm, ⟨1, _⟩ => ⟨S512, .f32⟩
  | .hbm, ⟨2, _⟩ => ⟨S512, .f32⟩
  | .hbm, ⟨3, _⟩ => ⟨S4096x512x32, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .i1⟩
  | .hbm, ⟨21, _⟩ => ⟨S512, .f32⟩
  | .hbm, ⟨22, _⟩ => ⟨S_, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S_, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S4096x512x32, .f32⟩
  | .hbm, ⟨36, _⟩ => ⟨S4096x16384, .f32⟩
  | .local _ .vmem, ⟨0, _⟩ => ⟨S32x512x32, .f32⟩
  | .local _ .vmem, ⟨1, _⟩ => ⟨S32x512x32, .f32⟩
  | .local _ .vmem, ⟨2, _⟩ => ⟨S512, .f32⟩
  | .local _ .vmem, ⟨3, _⟩ => ⟨S512, .f32⟩
  | .local _ .vmem, ⟨4, _⟩ => ⟨S16x512x32, .f32⟩
  | .local _ .vmem, ⟨5, _⟩ => ⟨S16x512x32, .f32⟩
  | .local _ .vmem, ⟨6, _⟩ => ⟨S512, .f32⟩
  | .local _ .vmem, ⟨7, _⟩ => ⟨S512, .f32⟩
  | .local _ .vmem, ⟨8, _⟩ => ⟨S16x512x32, .f32⟩
  | .local _ .vmem, ⟨9, _⟩ => ⟨S16x512x32, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [BitOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v13 : BitVec 1 := Scalar.cmpi .eq arg0 c127_i32
  let v14 : BitVec 32 := Scalar.extui v13
  let c0_i32_6 : BitVec 32 := 0#32
  let v15 : BitVec 1 := Scalar.cmpi .ne v14 c0_i32_6
  v15

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S32x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![256], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x512x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x512x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4096x16384_S4096x512x32 : S4096x16384.ShapeCasts S4096x512x32
  inb_S512_S512_0 : ∀ a, (![0] : Fin 1 → Nat) a + S512.size a ≤ S512.size a
  h_S512 : 0 < S512.numel
  shapeCasts_S512_S512 : S512.ShapeCasts S512
  inb_S32x512x32_S32x512x32_0_0_0 : ∀ a, (![0, 0, 0] : Fin 3 → Nat) a + S32x512x32.size a ≤ S32x512x32.size a
  h_S32x512x32 : 0 < S32x512x32.numel
  shapeCasts_S32x512x32_S32x512x32 : S32x512x32.ShapeCasts S32x512x32
  reduces_S32x512x32_S32x512 : S32x512x32.Reduces [2] S32x512
  reduces_S32x512_S512 : S32x512.Reduces [0] S512
  bcast_S_S512 : S_.BroadcastsInDim S512 (![] : Fin 0 → Fin S512.rank)
  inb_S16x512x32_S16x512x32_0_0_0 : ∀ a, (![0, 0, 0] : Fin 3 → Nat) a + S16x512x32.size a ≤ S16x512x32.size a
  h_S16x512x32 : 0 < S16x512x32.numel
  shapeCasts_S16x512x32_S16x512x32 : S16x512x32.ShapeCasts S16x512x32
  shapeCasts_S512_S1x512x1 : S512.ShapeCasts S1x512x1
  broadcasts_S1x512x1_S16x512x32 : S1x512x1.Broadcasts S16x512x32
  shapeCasts_S4096x512x32_S4096x16384 : S4096x512x32.ShapeCasts S4096x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x32.size a ≤ S4096x512x32.size a
  hwx0_0 : ∀ i : grid0.Coords, EltTy.bits .f32 = 32 ∨ (Rect.block (s := S4096x512x32) S32x512x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512x32.size a ≤ S4096x512x32.size a
  hwx1_0 : ∀ i : grid1.Coords, EltTy.bits .f32 = 32 ∨ (Rect.block (s := S4096x512x32) S16x512x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S512.size a
  hwx1_1 : ∀ i : grid1.Coords, EltTy.bits .f32 = 32 ∨ (Rect.block (s := S512) S512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x512x32.size a ≤ S4096x512x32.size a
  hwx1_3 : ∀ i : grid1.Coords, EltTy.bits .f32 = 32 ∨ (Rect.block (s := S4096x512x32) S16x512x32.size (cc1_transform_3 i) (hinb1_3 i)).WholeWords (EltTy.packing .f32)

variable [Facts₀]

abbrev win0_0 : Pipeline.Window sig grid0 :=
  Pipeline.Window.ofSpec (Memref.whole main_v0) S32x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S16x512x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S16x512x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x16384 : Shape := ⟨2, ![4096, 16384]⟩
abbrev S512 : Shape := ⟨1, ![512]⟩
abbrev S_ : Shape := ⟨0, ![]⟩
abbrev S4096x512x32 : Shape := ⟨3, ![4096, 512, 32]⟩
abbrev S1x512x1 : Shape := ⟨3, ![1, 512, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S4096x512x32, .f32⟩
  | .hbm, ⟨17, _⟩ => ⟨S4096x512x32, .f32⟩
  | .hbm, ⟨18, _⟩ => ⟨S_, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .i1⟩
  | .hbm, ⟨23, _⟩ => ⟨S512, .f32⟩
  | .hbm, ⟨24, _⟩ => ⟨S_, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S512, .f32⟩
  | .hbm, ⟨37, _⟩ => ⟨S1x512x1, .f32⟩
  | .hbm, ⟨38, _⟩ => ⟨S4096x512x32, .f32⟩
  | .hbm, ⟨39, _⟩ => ⟨S4096x512x32, .f32⟩
  | .hbm, ⟨40, _⟩ => ⟨S4096x512x32, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096x512x32, .f32⟩
  | .hbm, ⟨45, _⟩ => ⟨S4096x512x32, .f32⟩
  | .hbm, ⟨46, _⟩ => ⟨S_, .f32⟩
  | .hbm, ⟨47, _⟩ => ⟨S4096x512x32, .f32⟩
  | .hbm, ⟨48, _⟩ => ⟨S4096x512x32, .f32⟩
  | .hbm, ⟨49, _⟩ => ⟨S1x512x1, .f32⟩
  | .hbm, ⟨50, _⟩ => ⟨S4096x512x32, .f32⟩
  | .hbm, ⟨51, _⟩ => ⟨S4096x512x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096x512x32, .f32⟩
  | .hbm, ⟨56, _⟩ => ⟨S4096x512x32, .f32⟩
  | .hbm, ⟨57, _⟩ => ⟨S_, .f32⟩
  | .hbm, ⟨58, _⟩ => ⟨S4096x512x32, .f32⟩
  | .hbm, ⟨59, _⟩ => ⟨S4096x512x32, .f32⟩
  | .hbm, ⟨60, _⟩ => ⟨S_, .f32⟩
  | .hbm, ⟨61, _⟩ => ⟨S4096x512x32, .f32⟩
  | .hbm, ⟨62, _⟩ => ⟨S4096x512x32, .f32⟩
  | .hbm, ⟨63, _⟩ => ⟨S4096x512x32, .f32⟩
  | .hbm, ⟨64, _⟩ => ⟨S_, .f32⟩
  | .hbm, ⟨65, _⟩ => ⟨S4096x512x32, .f32⟩
  | .hbm, ⟨66, _⟩ => ⟨S4096x512x32, .f32⟩
  | .hbm, ⟨67, _⟩ => ⟨S4096x512x32, .f32⟩
  | .hbm, ⟨68, _⟩ => ⟨S4096x512x32, .f32⟩
  | .hbm, ⟨69, _⟩ => ⟨S4096x512x32, .f32⟩
  | .hbm, ⟨70, _⟩ => ⟨S4096x512x32, .f32⟩
  | .hbm, ⟨71, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v15 : Ref sig .tc := ⟨.hbm, 32, rfl⟩
abbrev main_cst_6 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_cst_8 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_9 : Ref sig .tc := ⟨.hbm, 52, rfl⟩
abbrev main_cst_10 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v27 : Ref sig .tc := ⟨.hbm, 59, rfl⟩
abbrev main_cst_11 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_12 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩

abbrev nD : Nat := 1
abbrev τ : Topo := Topo.v7x

variable {F : FTy → Type} [FloatOps F]

class Facts₀ : Prop where
  bcast_S_S512 : S_.BroadcastsInDim S512 (![] : Fin 0 → Fin S512.rank)
  shapeCasts_S4096x16384_S4096x512x32 : S4096x16384.ShapeCasts S4096x512x32
  reducesTo_S4096x512x32_S512_d0_2 : S4096x512x32.ReducesTo [0, 2] S512
  h_S_ : 0 < S_.numel
  bcast_S512_S1x512x1_1 : S512.BroadcastsInDim S1x512x1 (![1] : Fin 1 → Fin S1x512x1.rank)
  bcast_S1x512x1_S4096x512x32_0_1_2 : S1x512x1.BroadcastsInDim S4096x512x32 (![0, 1, 2] : Fin 3 → Fin S4096x512x32.rank)
  bcast_S_S4096x512x32 : S_.BroadcastsInDim S4096x512x32 (![] : Fin 0 → Fin S4096x512x32.rank)
  shapeCasts_S4096x512x32_S4096x16384 : S4096x512x32.ShapeCasts S4096x16384

variable [Facts₀]

class Facts : Prop extends Facts₀ where

variable [Facts]
-- ==== Proof.FrameK.MaxCases.lean ====
/-
  The group-maximum launch: 128 grid points, point t taking rows 32t … 32t+31 of the grouped weight [4096, 512, 32]; a
  scratch vector [512] carries the running maximum from point to point (reset to zero at the first point), and the result
  vector [512] is stored at the last point only. This module: the two conditions of the body decided over the grid, where
  the result window is idle, and the body run in each of the three cases the grid meets — the first point (reset, then
  accumulate), a middle point (accumulate), the last point (accumulate, then store the result).
-/
import proofs.«136674_j88175678587514_2_alg».proof.Proof.Gen.Kernel.Launch
import proofs.«136674_j88175678587514_2_alg».proof.Proof.Gen.Kernel.Skeleton
import proofs.«136674_j88175678587514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The blocks the launch reads -/

/-- Window `w`'s block at point `t`, read off its array as the launch finds it. -/
def mblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds its block at every point, for any proof data over `V` whose body leaves
    that buffer as found. -/
theorem mfound_of {c : Dev nD} (dat : Dat τ (Elt F) Unit ℕ (UR sig nD τ) ℕ cfg0 c) (hA : dat.A 0 = V c (Pipeline.arrRef spec0 0))
    (hafter : ∀ t, dat.after 0 t = mblk V c 0 t) (t : Fin cfg0.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)

/-! ## The body's two conditions -/

/-- "This is the first point": the body's first branch, from the grid coordinate. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 128 = 0 :=
  (by decide +kernel : ∀ t : Fin grid0.N, isFirst (grid0.coords t) ↔ t.val % 128 = 0)

/-- "This is the last point": the body's second branch. -/
abbrev isLast (i : grid0.Coords) : Prop := k0_cond2 i = 1#1
theorem isLast_iff : ∀ t : Fin cfg0.N, isLast (grid0.coords t) ↔ t.val % 128 = 127 :=
  (by decide +kernel : ∀ t : Fin grid0.N, isLast (grid0.coords t) ↔ t.val % 128 = 127)

/-! ## Where the windows are idle -/

theorem weight_live : ∀ t : Fin cfg0.N, cfg0.idle 0 (grid0.coords t) = false := by decide +kernel
/-- Before the last point the result window is idle (nothing stored into it) and not written back. -/
theorem result_idle : ∀ t : Fin cfg0.N, ¬isLast (grid0.coords t) → cfg0.idle 1 (grid0.coords t) = true := by decide +kernel
theorem result_kept : ∀ t : Fin cfg0.N, ¬isLast (grid0.coords t) → (cfg0.win 1).flush t = false := by decide +kernel
/-- At the last point it is live. -/
theorem result_live : ∀ t : Fin cfg0.N, isLast (grid0.coords t) → cfg0.idle 1 (grid0.coords t) = false := by decide +kernel

/-! ## The buffers the body is handed -/

/-- The result window's one staging buffer and the scratch, as views: their contents are stated through them. -/
abbrev resV : View sig .tc .vmem S512 .f32 := (Memref.whole cc0_stg1_0 : Memref sig .tc .vmem S512 .f32).view
abbrev accM : Memref sig .tc .vmem S512 .f32 := Memref.whole cc0_scratch0
abbrev accV : View sig .tc .vmem S512 .f32 := accM.view
/-- Each window's current staging buffer at point `t`, as the pipeline passes it. -/
abbrev wM (t : Fin cfg0.N) : Memref sig .tc .vmem S32x512x32 .f32 := win0_0.stage (cfg0.slots t 0)
abbrev wMh (t : Fin cfg0.N) : (wM t).IsWhole := hstage0_0 ((cfg0.slots t 0).cast nbuf0_0)
abbrev rM (t : Fin cfg0.N) : Memref sig .tc .vmem S512 .f32 := win0_1.stage (cfg0.slots t 1)
abbrev rMh (t : Fin cfg0.N) : (rM t).IsWhole := hstage0_1 ((cfg0.slots t 1).cast nbuf0_1)

/-- The other launch's six staging buffers, each whole at some contents: scoped storage this launch never touches. -/
def spare (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the body besides the windows: the scratch at some contents, that spare storage, and the
    generator register. -/
theorem carried_eq (c : Dev nD) :
    (Pipeline.ΦA spec0 c : sProp 𝕄)
      = iprop(iprop((∃ d, owns (c : Thread nD τ) accM fullShare d) ∗ spare (F := F) c) ∗ (∃ r, prngReg c r)) := by
  unfold Pipeline.ΦA spare; rw [scopedRest0_eq]; simp only [accM, owns_whole]; try rfl

/-! ## The body, case by case -/

set_option maxHeartbeats 1000000 in
/-- FIRST POINT. The weight buffer at `x0`, the result buffer at `xi` (handed back untouched), the scratch at anything:
    the body ends with the scratch holding the stores `LS` it made (found by running it). -/
noncomputable def runFirst (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : isFirst i) (hc1 : ¬isLast i) (x0 : Vec F S32x512x32 .f32) :
    { LS : List (View.Piece (Elt F) S512 .f32) //
      ∀ (xi : Vec F S512 .f32) (E : Set ℕ) (K : PUnit → sProp 𝕄),
        iprop(owns (c : Thread nD τ) arg1 fullShare x0 ∗ owns (c : Thread nD τ) arg2 fullShare xi ∗ (∃ d, owns (c : Thread nD τ) arg3 fullShare d)
            ∗ (iprop(owns (c : Thread nD τ) arg1 fullShare x0 ∗ owns (c : Thread nD τ) arg2 fullShare xi
                ∗ (∃ f, arg3.view.loc (c : Thread nD τ) ↦[arg3.view.set]{fullShare} arg3.view.writes (Elt F) f LS)) -∗ K ⟨⟩))
          ⊢ wp frame (wpE (defs₀ (F := F)) Variants.none c none) E (cc0__maxabs_kernel i arg1 harg1 arg2 harg2 arg3 harg3) K } := by
  refine ⟨?_, fun xi E K => ?run⟩
  case run =>
    simp only [cc0__maxabs_kernel_eq_skeleton]; unfold cc0__maxabs_kernel_skel
    unfold owns
    iintro ⟨⟨%f0, %hf0, H0⟩, ⟨%f1, %hf1, H1⟩, ⟨%ds, %fs, -, HS⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 1000000 in
/-- A MIDDLE POINT. As above, the scratch now at the contents `xs` the point before left. -/
noncomputable def runMid (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : ¬isLast i) (x0 : Vec F S32x512x32 .f32) (xs : Vec F S512 .f32) :
    { LS : List (View.Piece (Elt F) S512 .f32) //
      ∀ (xi : Vec F S512 .f32) (E : Set ℕ) (K : PUnit → sProp 𝕄),
        iprop(owns (c : Thread nD τ) arg1 fullShare x0 ∗ owns (c : Thread nD τ) arg2 fullShare xi ∗ owns (c : Thread nD τ) arg3 fullShare xs
            ∗ (iprop(owns (c : Thread nD τ) arg1 fullShare x0 ∗ owns (c : Thread nD τ) arg2 fullShare xi
                ∗ (∃ f, arg3.view.loc (c : Thread nD τ) ↦[arg3.view.set]{fullShare} arg3.view.writes (Elt F) f LS)) -∗ K ⟨⟩))
          ⊢ wp frame (wpE (defs₀ (F := F)) Variants.none c none) E (cc0__maxabs_kernel i arg1 harg1 arg2 harg2 arg3 harg3) K } := by
  refine ⟨?_, fun xi E K => ?run⟩
  case run =>
    simp only [cc0__maxabs_kernel_eq_skeleton]; unfold cc0__maxabs_kernel_skel
    unfold owns
    iintro ⟨⟨%f0, %hf0, H0⟩, ⟨%f1, %hf1, H1⟩, ⟨%fs, %hfs, HS⟩, Hk⟩
    obtain rfl := harg1.eq_unread hf0; obtain rfl := harg2.eq_unread hf1; obtain rfl := harg3.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 1000000 in
/-- THE LAST POINT. The result buffer at anything; the body ends with it holding the stores `L1` and the scratch the
    stores `LS`. -/
noncomputable def runLast (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : isLast i) (x0 : Vec F S32x512x32 .f32) (xs : Vec F S512 .f32) :
    Σ' (L1 : List (View.Piece (Elt F) S512 .f32)), { LS : List (View.Piece (Elt F) S512 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f LS)) -∗ K ⟨⟩))
          ⊢ wp frame (wpE (defs₀ (F := F)) Variants.none c none) E (cc0__maxabs_kernel i arg1 harg1 arg2 harg2 arg3 harg3) K } := by
  refine ⟨?_, ?_, fun E K => ?run⟩
  case run =>
    simp only [cc0__maxabs_kernel_eq_skeleton]; unfold cc0__maxabs_kernel_skel
    unfold owns
    iintro ⟨⟨%f0, %hf0, H0⟩, ⟨%d1, %f1, -, H1⟩, ⟨%fs, %hfs, HS⟩, Hk⟩
    obtain rfl := harg1.eq_unread hf0; obtain rfl := harg3.eq_unread hfs
    sl_exec (disch := first | exact hc0 | exact hc1)
    sl_step
    iapply Hk
    isplitl [H0]
    · iexists _; isplitr; · ipureintro; exact harg1.read_unread _
      iexact H0
    isplitl [H1]; · iexists _; iexact H1
    iexists _; iexact HS

end Cert.Kernel.Hand

end
-- ==== Proof.FrameK.MaxAbs.lean ====
/-
  The group-maximum launch, continued: what the scratch holds after each point, by recursion on the point — after the
  first point what the first case's stores leave, after a later point what that point's case leaves when it starts from
  what the point before left —, the proof data built on it (the result window's block at the last point is what the
  last case stores; the scratch's contents ride in what is carried from point to point), and the body obligation at
  every point.
-/
import proofs.«136674_j88175678587514_2_alg».proof.Proof.FrameK.MaxCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## What each case leaves -/

/-- Each case's stores into the scratch tile it. -/
theorem first_cover (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : isFirst i) (hc1 : ¬isLast i) (x0 : Vec F S32x512x32 .f32) (y : S512.Idx) :
    ∃ pc ∈ (runFirst c i arg1 harg1 arg2 harg2 arg3 harg3 hc0 hc1 x0).1, y ∈ pc.1.set :=
  View.cover_of_tiledL (runFirst c i arg1 harg1 arg2 harg2 arg3 harg3 hc0 hc1 x0).1 S512.size (by sl_kernel_rfl) y
theorem mid_cover (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : ¬isLast i) (x0 : Vec F S32x512x32 .f32) (xs : Vec F S512 .f32) (y : S512.Idx) :
    ∃ pc ∈ (runMid c i arg1 harg1 arg2 harg2 arg3 harg3 hc0 hc1 x0 xs).1, y ∈ pc.1.set :=
  View.cover_of_tiledL (runMid c i arg1 harg1 arg2 harg2 arg3 harg3 hc0 hc1 x0 xs).1 S512.size (by sl_kernel_rfl) y
theorem last_cover (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : isLast i) (x0 : Vec F S32x512x32 .f32) (xs : Vec F S512 .f32) (y : S512.Idx) :
    ∃ pc ∈ (runLast c i arg1 harg1 arg2 harg2 arg3 harg3 hc0 hc1 x0 xs).2.1, y ∈ pc.1.set :=
  View.cover_of_tiledL (runLast c i arg1 harg1 arg2 harg2 arg3 harg3 hc0 hc1 x0 xs).2.1 S512.size (by sl_kernel_rfl) y
/-- The last case's store into the result buffer tiles it. -/
theorem result_cover (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : isLast i) (x0 : Vec F S32x512x32 .f32) (xs : Vec F S512 .f32) (y : S512.Idx) :
    ∃ pc ∈ (runLast c i arg1 harg1 arg2 harg2 arg3 harg3 hc0 hc1 x0 xs).1, y ∈ pc.1.set :=
  View.cover_of_tiledL (runLast c i arg1 harg1 arg2 harg2 arg3 harg3 hc0 hc1 x0 xs).1 S512.size (by sl_kernel_rfl) y

/-- The scratch after the first point / a middle point / the last point: the case's stores read back. -/
def accFirst (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : isFirst i) (hc1 : ¬isLast i) (x0 : Vec F S32x512x32 .f32) : Vec F S512 .f32 :=
  accV.read (Elt F) (accV.writes (Elt F) accV.junk (runFirst c i arg1 harg1 arg2 harg2 arg3 harg3 hc0 hc1 x0).1)
def accMid (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : ¬isLast i) (x0 : Vec F S32x512x32 .f32) (xs : Vec F S512 .f32) : Vec F S512 .f32 :=
  accV.read (Elt F) (accV.writes (Elt F) accV.junk (runMid c i arg1 harg1 arg2 harg2 arg3 harg3 hc0 hc1 x0 xs).1)
def accLast (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : isLast i) (x0 : Vec F S32x512x32 .f32) (xs : Vec F S512 .f32) : Vec F S512 .f32 :=
  accV.read (Elt F) (accV.writes (Elt F) accV.junk (runLast c i arg1 harg1 arg2 harg2 arg3 harg3 hc0 hc1 x0 xs).2.1)
/-- The result buffer after the last point. -/
def resLast (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : isLast i) (x0 : Vec F S32x512x32 .f32) (xs : Vec F S512 .f32) : Vec F S512 .f32 :=
  resV.read (Elt F) (resV.writes (Elt F) resV.junk (runLast c i arg1 harg1 arg2 harg2 arg3 harg3 hc0 hc1 x0 xs).1)
/-- Before the last point nothing is stored into the result buffer: a placeholder nothing reads. -/
def resNone : Vec F S512 .f32 := resV.read (Elt F) (resV.writes (Elt F) resV.junk [])

/-! ## The accumulation over the points -/

/-- What the result buffer (first component) and the scratch (second) hold after the body at point `n`. -/
def heldAt (c : Dev nD) : (n : ℕ) → n < cfg0.N → Vec F S512 .f32 × Vec F S512 .f32
  | 0, hn => (resNone, accFirst c (grid0.coords ⟨0, hn⟩) (wM ⟨0, hn⟩) (wMh ⟨0, hn⟩) (rM ⟨0, hn⟩) (rMh ⟨0, hn⟩) accM (Memref.isWhole_whole _)
      ((isFirst_iff ⟨0, hn⟩).mpr (Nat.zero_mod _)) (fun h => (fun h => by (try dsimp only at h); omega) ((isLast_iff ⟨0, hn⟩).mp h)) (mblk V c 0 ⟨0, hn⟩))
  | n + 1, hn =>
    if h0 : (n + 1) % 128 = 0 then
      False.elim (by have hN : n + 1 < 128 := lt_of_lt_of_eq hn (show cfg0.N = 128 from N_0); omega)
    else
      if h1 : (n + 1) % 128 = 127 then
        (resLast c (grid0.coords ⟨n + 1, hn⟩) (wM ⟨n + 1, hn⟩) (wMh ⟨n + 1, hn⟩) (rM ⟨n + 1, hn⟩) (rMh ⟨n + 1, hn⟩) accM (Memref.isWhole_whole _)
            (fun h => h0 ((isFirst_iff ⟨n + 1, hn⟩).mp h)) ((isLast_iff ⟨n + 1, hn⟩).mpr h1) (mblk V c 0 ⟨n + 1, hn⟩) (heldAt c n (Nat.lt_of_succ_lt hn)).2,
         accLast c (grid0.coords ⟨n + 1, hn⟩) (wM ⟨n + 1, hn⟩) (wMh ⟨n + 1, hn⟩) (rM ⟨n + 1, hn⟩) (rMh ⟨n + 1, hn⟩) accM (Memref.isWhole_whole _)
            (fun h => h0 ((isFirst_iff ⟨n + 1, hn⟩).mp h)) ((isLast_iff ⟨n + 1, hn⟩).mpr h1) (mblk V c 0 ⟨n + 1, hn⟩) (heldAt c n (Nat.lt_of_succ_lt hn)).2)
      else
        (resNone,
         accMid c (grid0.coords ⟨n + 1, hn⟩) (wM ⟨n + 1, hn⟩) (wMh ⟨n + 1, hn⟩) (rM ⟨n + 1, hn⟩) (rMh ⟨n + 1, hn⟩) accM (Memref.isWhole_whole _)
            (fun h => h0 ((isFirst_iff ⟨n + 1, hn⟩).mp h)) (fun h => h1 ((isLast_iff ⟨n + 1, hn⟩).mp h)) (mblk V c 0 ⟨n + 1, hn⟩) (heldAt c n (Nat.lt_of_succ_lt hn)).2)

theorem heldAt_first (c : Dev nD) (t : Fin cfg0.N) (h0 : t.val % 128 = 0) (h1 : ¬t.val % 128 = 127) :
    heldAt V c t.val t.isLt = (resNone, accFirst c (grid0.coords t) (wM t) (wMh t) (rM t) (rMh t) accM (Memref.isWhole_whole _)
      ((isFirst_iff t).mpr h0) (fun h => h1 ((isLast_iff t).mp h)) (mblk V c 0 t)) := by
  obtain ⟨n, hn⟩ := t
  cases n with
  | zero => exact rfl
  | succ n => exact (by exfalso; have hN : n + 1 < 128 := lt_of_lt_of_eq hn (show cfg0.N = 128 from N_0); (try dsimp only at h0); omega)

theorem heldAt_mid (c : Dev nD) (t : Fin cfg0.N) (h0 : ¬t.val % 128 = 0) (h1 : ¬t.val % 128 = 127) :
    heldAt V c t.val t.isLt = (resNone, accMid c (grid0.coords t) (wM t) (wMh t) (rM t) (rMh t) accM (Memref.isWhole_whole _)
      (fun h => h0 ((isFirst_iff t).mp h)) (fun h => h1 ((isLast_iff t).mp h)) (mblk V c 0 t)
      (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem heldAt_last (c : Dev nD) (t : Fin cfg0.N) (h0 : ¬t.val % 128 = 0) (h1 : t.val % 128 = 127) :
    heldAt V c t.val t.isLt =
      (resLast c (grid0.coords t) (wM t) (wMh t) (rM t) (rMh t) accM (Memref.isWhole_whole _)
        (fun h => h0 ((isFirst_iff t).mp h)) ((isLast_iff t).mpr h1) (mblk V c 0 t) (heldAt V c (t.val - 1) (Nat.lt_of_le_of_lt (Nat.sub_le _ _) t.isLt)).2,
       accLast c (grid0.coords t) (wM t) (wMh t) (rM t) (rMh t) accM (Memref.isWhole_whole _)
        (fun h => h0 ((isFirst_iff t).mp h)) ((isLast_iff t).mpr h1) (mblk V c 0 t) (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## What is carried from point to point -/

/-- Before the first point: what the launch hands over (the scratch at anything). Before point `n + 1`: the scratch at
    what point `n` left in it, the spare storage, the generator register. -/
def carried (c : Dev nD) : (n : ℕ) → n ≤ cfg0.N → sProp 𝕄
  | 0, _ => Pipeline.ΦA spec0 c
  | n + 1, hn => iprop(iprop(owns (c : Thread nD τ) accM fullShare ((heldAt V c n hn).2) ∗ spare (F := F) c) ∗ (∃ r, prngReg c r))

theorem carried_zero (c : Dev nD) (n : ℕ) (h : n ≤ cfg0.N) (hz : n = 0) : carried V c n h = Pipeline.ΦA spec0 c := by
  subst hz; rfl
theorem carried_succ (c : Dev nD) (n : ℕ) (hn : n < cfg0.N) :
    carried V c (n + 1) hn = iprop(iprop(owns (c : Thread nD τ) accM fullShare ((heldAt V c n hn).2) ∗ spare (F := F) c) ∗ (∃ r, prngReg c r)) := rfl
theorem carried_pos (c : Dev nD) (n : ℕ) (h : n ≤ cfg0.N) (hz : n ≠ 0) :
    carried V c n h = iprop(iprop(owns (c : Thread nD τ) accM fullShare ((heldAt V c (n - 1) (by omega)).2) ∗ spare (F := F) c) ∗ (∃ r, prngReg c r)) := by
  cases n with
  | zero => exact absurd rfl hz
  | succ n => rfl

/-! ## The proof data -/

def mdat (c : Dev nD) : Dat τ (Elt F) Unit ℕ (UR sig nD τ) ℕ cfg0 c where
  A w := V c (Pipeline.arrRef spec0 w)
  after w t := match w with
    | ⟨0, _⟩ => mblk V c 0 t
    | ⟨1, _⟩ => (heldAt V c t.val t.isLt).1
  Φ t := carried V c t.val (Nat.le_of_lt_succ t.isLt)
  q _ := fullShare
  owed _ := 0

theorem mdat_A (c : Dev nD) (w : Fin cfg0.W) : (mdat V c).A w = V c (Pipeline.arrRef spec0 w) := by dsimp only [mdat]
theorem carried_castSucc (c : Dev nD) (t : Fin cfg0.N) :
    (mdat V c).Φ t.castSucc = carried V c t.val (Nat.le_of_lt t.isLt) := by
  dsimp only [mdat]; simp only [Fin.coe_castSucc]
theorem mafter_0 (c : Dev nD) (t : Fin cfg0.N) : (mdat V c).after 0 t = mblk V c 0 t := by dsimp only [mdat]
theorem mafter_1 (c : Dev nD) (t : Fin cfg0.N) : (mdat V c).after 1 t = (heldAt V c t.val t.isLt).1 := by dsimp only [mdat]
theorem mfound (c : Dev nD) (t : Fin cfg0.N) (d) : (mdat V c).before 0 t d = mblk V c 0 t :=
  mfound_of V (mdat V c) (mdat_A V c 0) (mafter_0 V c) t d

/-! ## The body obligation -/

def mpre (c : Dev nD) (t : Fin cfg0.N) : sProp 𝕄 :=
  iprop((mdat V c).Φ t.castSucc ∗ (mdat V c).owesAt () t.castSucc
    ∗ (∃ d, owns (c : Thread nD τ) (wM t) fullShare ((mdat V c).before 0 t d))
    ∗ (∃ d, owns (c : Thread nD τ) (rM t) fullShare ((mdat V c).before 1 t d)))

def mpost (c : Dev nD) (t : Fin cfg0.N) : sProp 𝕄 :=
  iprop((mdat V c).Φ t.succ ∗ (mdat V c).owesAt () t.succ
    ∗ (mdat V c).leavesExact 0 t
    ∗ (mdat V c).leavesExact 1 t)

set_option maxHeartbeats 4800000 in
/-- The body at any point. The weight buffer holds its block; the point's position selects the case; what is carried
    hands the body the scratch at what the point before left (at anything, at the first point) and takes it back at this
    point's contents; before the last point the result buffer goes back as found. -/
theorem max_point (c : Dev nD) (t : Fin cfg0.N) :
    mpre V c t ⊢ wp frame (wpE (defs₀ (F := F)) Variants.none c none) Set.univ (bodyAt0 t) (fun _ => mpost V c t) := by
  unfold mpre mpost bodyAt0
  simp only [mfound]
  rw [show (mdat V c).owesAt () t.succ = (mdat V c).owesAt () t.castSucc from rfl]
  rw [show (mdat V c).Φ t.succ = carried V c (t.val + 1) t.isLt from rfl, carried_succ]
  have hN : t.val < 128 := lt_of_lt_of_eq t.isLt (show cfg0.N = 128 from N_0)
  rw [show (mdat V c).leavesExact 0 t = owns (c : Thread nD τ) (wM t) fullShare ((mdat V c).after 0 t) from by
    unfold Dat.leavesExact; rw [weight_live t], mafter_0]
  by_cases h0 : t.val % 128 = 0
  · have h1 : ¬t.val % 128 = 127 := by omega
    have hz : t.val = 0 := by omega
    rw [Dat.leavesExact_idle (mdat V c) 1 t (result_idle t (fun h => h1 ((isLast_iff t).mp h))) (result_kept t (fun h => h1 ((isLast_iff t).mp h)))]
    rw [heldAt_first V c t h0 h1]
    unfold accFirst; (try dsimp only)
    rw [carried_castSucc V c t, carried_zero V c _ _ hz, carried_eq]
    iintro ⟨⟨⟨HS, Hsp⟩, Hg⟩, Ho, ⟨%d0, H0⟩, ⟨%d1, H1⟩⟩
    iapply ((runFirst c (grid0.coords t) _ _ _ _ _ _ ((isFirst_iff t).mpr h0) (fun h => h1 ((isLast_iff t).mp h)) (mblk V c 0 t)).2 _ Set.univ _)
    isplitl [H0]; · iexact H0
    isplitl [H1]; · iexact H1
    isplitl [HS]; · iexact HS
    iintro ⟨H0, H1, ⟨%es, HS⟩⟩
    isplitl [HS Hsp Hg]
    · isplitl [HS Hsp]
      · isplitl [HS]
        · unfold owns; iexists _; isplitr
          swap; · iexact HS
          ipureintro; exact View.read_writes_of_cover _ _ _ _ _ (first_cover c _ _ _ _ _ _ _ _ _ _)
        iexact Hsp
      iexact Hg
    isplitl [Ho]; · iexact Ho
    isplitl [H0]; · iexact H0
    iexists _; iexact H1
  · have hz : t.val ≠ 0 := fun h => h0 (by rw [h])
    by_cases h1 : t.val % 128 = 127
    · rw [show (mdat V c).leavesExact 1 t = owns (c : Thread nD τ) (rM t) fullShare ((mdat V c).after 1 t) from by
        unfold Dat.leavesExact; rw [result_live t ((isLast_iff t).mpr h1)], mafter_1]
      rw [heldAt_last V c t h0 h1]
      unfold resLast accLast; (try dsimp only)
      rw [carried_castSucc V c t, carried_pos V c _ _ hz]
      iintro ⟨⟨⟨HS, Hsp⟩, Hg⟩, Ho, ⟨%d0, H0⟩, ⟨%d1, H1⟩⟩
      iapply ((runLast c (grid0.coords t) _ _ _ _ _ _ (fun h => h0 ((isFirst_iff t).mp h)) ((isLast_iff t).mpr h1) (mblk V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hsp Hg]
      · isplitl [HS Hsp]
        · isplitl [HS]
          · unfold owns; iexists _; isplitr
            swap; · iexact HS
            ipureintro; exact View.read_writes_of_cover _ _ _ _ _ (last_cover c _ _ _ _ _ _ _ _ _ _ _)
          iexact Hsp
        iexact Hg
      isplitl [Ho]; · iexact Ho
      isplitl [H0]; · iexact H0
      unfold owns; iexists _; isplitr
      swap; · iexact H1
      ipureintro; exact View.read_writes_of_cover _ _ _ _ _ (result_cover c _ _ _ _ _ _ _ _ _ _ _)
    · rw [Dat.leavesExact_idle (mdat V c) 1 t (result_idle t (fun h => h1 ((isLast_iff t).mp h))) (result_kept t (fun h => h1 ((isLast_iff t).mp h)))]
      rw [heldAt_mid V c t h0 h1]
      unfold accMid; (try dsimp only)
      rw [carried_castSucc V c t, carried_pos V c _ _ hz]
      iintro ⟨⟨⟨HS, Hsp⟩, Hg⟩, Ho, ⟨%d0, H0⟩, ⟨%d1, H1⟩⟩
      iapply ((runMid c (grid0.coords t) _ _ _ _ _ _ (fun h => h0 ((isFirst_iff t).mp h)) (fun h => h1 ((isLast_iff t).mp h)) (mblk V c 0 t) _).2 _ Set.univ _)
      isplitl [H0]; · iexact H0
      isplitl [H1]; · iexact H1
      isplitl [HS]; · iexact HS
      iintro ⟨H0, H1, ⟨%es, HS⟩⟩
      isplitl [HS Hsp Hg]
      · isplitl [HS Hsp]
        · isplitl [HS]
          · unfold owns; iexists _; isplitr
            swap; · iexact HS
            ipureintro; exact View.read_writes_of_cover _ _ _ _ _ (mid_cover c _ _ _ _ _ _ _ _ _ _ _)
          iexact Hsp
        iexact Hg
      isplitl [Ho]; · iexact Ho
      isplitl [H0]; · iexact H0
      iexists _; iexact H1

theorem max_obligation (c : Dev nD) : BodyObligation (mdat (F := F) V c) (defs₀ (F := F)) Variants.none () Set.univ := fun t => by
  rw [bigSep_W0, bigSep_W0]
  exact max_point V c t

/-- What the launch hands over is what is carried before the first point; after the last point what is carried gives it
    back, the scratch's contents forgotten. -/
theorem carried_in (c : Dev nD) : Pipeline.ΦA spec0 c ⊢ (mdat V c).Φ 0 := by
  rw [show (mdat V c).Φ 0 = carried V c 0 (Nat.zero_le _) from rfl, carried_zero V c 0 _ rfl]
  try exact Idealize.SL.BI.Entails.refl _

theorem carried_out (c : Dev nD) : (mdat V c).Φ (Fin.last cfg0.N) ⊢ Pipeline.ΦA spec0 c := by
  have hne : (Fin.last cfg0.N).val ≠ 0 := by rw [Fin.val_last]; have : cfg0.N = 128 := N_0; omega
  rw [show (mdat V c).Φ (Fin.last cfg0.N) = carried V c (Fin.last cfg0.N).val (Nat.le_of_lt_succ (Fin.last cfg0.N).isLt) from rfl,
    carried_pos V c _ _ hne, carried_eq]
  iintro ⟨⟨HS, Hsp⟩, Hg⟩
  isplitl [HS Hsp]
  · isplitl [HS]
    · iexists _; iexact HS
    iexact Hsp
  iexact Hg

end Cert.Kernel.Hand

end
-- ==== Proof.FrameK.Quantize.lean ====
/-
  The quantize launch: 256 grid points, point t taking rows 16t … 16t+15 of the grouped weight [4096, 512, 32]
  together with the two per-group vectors (scale and shift, each [512], the same block at every point), and writing
  rows 16t … 16t+15 of the result. Stated at any float instance and for ANY contents `V` of the buffers when the launch
  begins: what the body leaves in the result's staging buffer is ONE store of the body's arithmetic (`k1_pay1`) of the
  three input blocks; the input buffers are left as found.
-/
import proofs.«136674_j88175678587514_2_alg».proof.Proof.Gen.Kernel.Launch
import proofs.«136674_j88175678587514_2_alg».proof.Proof.Gen.Kernel.Skeleton
import proofs.«136674_j88175678587514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The blocks the launch reads -/

/-- Window `w`'s block at point `t`, read off its array as the launch finds it. -/
def qblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point — fetched there, or fetched earlier with the block
    index unmoved since — for any proof data over `V` whose body leaves that buffer as found (one statement per window:
    the block types are those of the literal window). -/
theorem qfound0_of {c : Dev nD} (dat : Dat τ (Elt F) Unit ℕ (UR sig nD τ) ℕ cfg1 c)
    (hA : dat.A 0 = V c (Pipeline.arrRef spec1 0)) (hafter : ∀ t, dat.after 0 t = qblk V c 0 t) (t : Fin cfg1.N) (d) :
    dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)
theorem qfound1_of {c : Dev nD} (dat : Dat τ (Elt F) Unit ℕ (UR sig nD τ) ℕ cfg1 c)
    (hA : dat.A 1 = V c (Pipeline.arrRef spec1 1)) (hafter : ∀ t, dat.after 1 t = qblk V c 1 t) (t : Fin cfg1.N) (d) :
    dat.before 1 t d = qblk V c 1 t :=
  (dat.before_in_eq_fetched 1 rfl (fun _ => rfl) (fun _ _ _ => rfl) (fun t => by rw [hafter]; unfold Dat.blockOf qblk; rw [hA]; try rfl) t d).trans
    (by unfold Dat.fetched Dat.blockOf qblk; rw [hA]; try rfl)
theorem qfound2_of {c : Dev nD} (dat : Dat τ (Elt F) Unit ℕ (UR sig nD τ) ℕ cfg1 c)
    (hA : dat.A 2 = V c (Pipeline.arrRef spec1 2)) (hafter : ∀ t, dat.after 2 t = qblk V c 2 t) (t : Fin cfg1.N) (d) :
    dat.before 2 t d = qblk V c 2 t :=
  (dat.before_in_eq_fetched 2 rfl (fun _ => rfl) (fun _ _ _ => rfl) (fun t => by rw [hafter]; unfold Dat.blockOf qblk; rw [hA]; try rfl) t d).trans
    (by unfold Dat.fetched Dat.blockOf qblk; rw [hA]; try rfl)

/-! ## What the body stores -/

/-- The whole weight / result block, and the whole per-group vector, as rectangles. -/
abbrev rW : Rect S16x512x32 := Rect.unit (s := S16x512x32) ![0, 0, 0] S16x512x32.size inb_S16x512x32_S16x512x32_0_0_0
abbrev rG : Rect S512 := Rect.unit (s := S512) ![0] S512.size inb_S512_S512_0

/-- The result block after the body, from the three input blocks: its one store. -/
def qout (x0 : Vec F S16x512x32 .f32) (x1 : Vec F S512 .f32) (x2 : Vec F S512 .f32) : Vec F S16x512x32 .f32 :=
  View.canon [⟨rW, k1_pay1 (View.ld x0 rW) (View.ld x1 rG) (View.ld x2 rG)⟩]

/-- That store covers the block. -/
theorem qcover (p0 : Vec F S16x512x32 .f32) (y : S16x512x32.Idx) :
    ∃ pc ∈ ([⟨rW, p0⟩] : List (View.Piece (Elt F) S16x512x32 .f32)), y ∈ pc.1.set :=
  View.cover_of_tiled [⟨rW, p0⟩] S16x512x32.size (by rfl) y

/-! ## The body's run -/

set_option maxHeartbeats 1000000 in
/-- On whole staging buffers — the three inputs' at contents `x0 x1 x2`, the result's at anything — the body runs to
    its end leaving the inputs' as they were and the result's at `qout x0 x1 x2`. -/
theorem quant_body_run (c : Dev nD) (E : Set ℕ) (i : grid1.Coords)
    (arg1 : Memref sig .tc .vmem S16x512x32 .f32) (harg1 : arg1.IsWhole) (arg2 : Memref sig .tc .vmem S512 .f32) (harg2 : arg2.IsWhole)
    (arg3 : Memref sig .tc .vmem S512 .f32) (harg3 : arg3.IsWhole) (arg4 : Memref sig .tc .vmem S16x512x32 .f32) (harg4 : arg4.IsWhole)
    (x0 : Vec F S16x512x32 .f32) (x1 : Vec F S512 .f32) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (qout x0 x1 x2)) -∗ K ⟨⟩))
      ⊢ wp frame (wpE (defs₀ (F := F)) Variants.none c none) E (cc1__quant_kernel i arg1 harg1 arg2 harg2 arg3 harg3 arg4 harg4) K := by
  simp only [cc1__quant_kernel_eq_skeleton]; unfold cc1__quant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (qcover _)

/-! ## The proof data of the launch -/

/-- Arrays as the launch finds them; after the body at point `t` each input buffer at its block and the result's at
    `qout` of the three blocks; nothing carried from point to point, nothing owed. -/
def qdat (c : Dev nD) : Dat τ (Elt F) Unit ℕ (UR sig nD τ) ℕ cfg1 c where
  A w := V c (Pipeline.arrRef spec1 w)
  after w t := match w with
    | ⟨0, _⟩ => qblk V c 0 t
    | ⟨1, _⟩ => qblk V c 1 t
    | ⟨2, _⟩ => qblk V c 2 t
    | ⟨3, _⟩ => qout (qblk V c 0 t) (qblk V c 1 t) (qblk V c 2 t)
  Φ _ := Pipeline.ΦA spec1 c
  q _ := fullShare
  owed _ := 0

theorem qdat_A (c : Dev nD) (w : Fin cfg1.W) : (qdat V c).A w = V c (Pipeline.arrRef spec1 w) := by dsimp only [qdat]
theorem qafter_0 (c : Dev nD) (t : Fin cfg1.N) : (qdat V c).after 0 t = qblk V c 0 t := by dsimp only [qdat]
theorem qafter_1 (c : Dev nD) (t : Fin cfg1.N) : (qdat V c).after 1 t = qblk V c 1 t := by dsimp only [qdat]
theorem qafter_2 (c : Dev nD) (t : Fin cfg1.N) : (qdat V c).after 2 t = qblk V c 2 t := by dsimp only [qdat]
theorem qafter_3 (c : Dev nD) (t : Fin cfg1.N) :
    (qdat V c).after 3 t = qout (qblk V c 0 t) (qblk V c 1 t) (qblk V c 2 t) := by dsimp only [qdat]

theorem qfound_0 (c : Dev nD) (t : Fin cfg1.N) (d) : (qdat V c).before 0 t d = qblk V c 0 t :=
  qfound0_of V (qdat V c) (qdat_A V c 0) (qafter_0 V c) t d
theorem qfound_1 (c : Dev nD) (t : Fin cfg1.N) (d) : (qdat V c).before 1 t d = qblk V c 1 t :=
  qfound1_of V (qdat V c) (qdat_A V c 1) (qafter_1 V c) t d
theorem qfound_2 (c : Dev nD) (t : Fin cfg1.N) (d) : (qdat V c).before 2 t d = qblk V c 2 t :=
  qfound2_of V (qdat V c) (qdat_A V c 2) (qafter_2 V c) t d

/-! ## The body obligation -/

def qpre (c : Dev nD) (t : Fin cfg1.N) : sProp 𝕄 :=
  iprop((qdat V c).Φ t.castSucc ∗ (qdat V c).owesAt () t.castSucc
    ∗ (∃ d, owns (c : Thread nD τ) (st1_0 t) fullShare ((qdat V c).before 0 t d))
    ∗ (∃ d, owns (c : Thread nD τ) (st1_1 t) fullShare ((qdat V c).before 1 t d))
    ∗ (∃ d, owns (c : Thread nD τ) (st1_2 t) fullShare ((qdat V c).before 2 t d))
    ∗ (∃ d, owns (c : Thread nD τ) (st1_3 t) fullShare ((qdat V c).before 3 t d)))

def qpost (c : Dev nD) (t : Fin cfg1.N) : sProp 𝕄 :=
  iprop((qdat V c).Φ t.succ ∗ (qdat V c).owesAt () t.succ
    ∗ owns (c : Thread nD τ) (st1_0 t) fullShare ((qdat V c).after 0 t)
    ∗ owns (c : Thread nD τ) (st1_1 t) fullShare ((qdat V c).after 1 t)
    ∗ owns (c : Thread nD τ) (st1_2 t) fullShare ((qdat V c).after 2 t)
    ∗ owns (c : Thread nD τ) (st1_3 t) fullShare ((qdat V c).after 3 t))

/-- The body at any point: the input buffers hold their blocks, so the run above applies; what is carried and what is
    owed pass through untouched. -/
theorem quant_point (c : Dev nD) (t : Fin cfg1.N) :
    qpre V c t ⊢ wp frame (wpE (defs₀ (F := F)) Variants.none c none) Set.univ (bodyAt1 t) (fun _ => qpost V c t) := by
  unfold qpre qpost bodyAt1
  simp only [qfound_0, qfound_1, qfound_2]
  rw [show (qdat V c).Φ t.succ = (qdat V c).Φ t.castSucc from rfl,
    show (qdat V c).owesAt () t.succ = (qdat V c).owesAt () t.castSucc from rfl,
    qafter_0, qafter_1, qafter_2, qafter_3]
  iintro ⟨HΦ, Ho, ⟨%d0, H0⟩, ⟨%d1, H1⟩, ⟨%d2, H2⟩, ⟨%d3, H3⟩⟩
  iapply (quant_body_run c Set.univ _ _ _ _ _ _ _ _ _ (qblk V c 0 t) (qblk V c 1 t) (qblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem quant_obligation (c : Dev nD) : BodyObligation (qdat (F := F) V c) (defs₀ (F := F)) Variants.none () Set.univ := fun t => by
  rw [bigSep_W1, bigSep_W1]
  exact quant_point V c t

end Cert.Kernel.Hand

end
-- ==== Proof.FrameK.Run.lean ====
/-
  The whole program's run. @main is nine items in order: a reshape of the weight to [4096, 512, 32]; the group-maximum
  launch; four stretches of small per-group arithmetic (the shift 0.5·tanh(·) plus a perturbation clamped to ±0.5; the
  exponent floor(log2 max) where the maximum is positive, else 0; the scale 2^exponent); the quantize launch; the reshape
  back. The contents of every buffer between two items are a fold from the launch memory (`B0` … `B9`): a stretch of
  host operations applies them, a launch replaces its windows' arrays by what its write-backs leave. The result: every
  execution terminates and ends with every buffer outside the launches' private storage at `B9` — from which the
  argument arrays are read back unchanged.
-/
import proofs.«136674_j88175678587514_2_alg».proof.Proof.FrameK.MaxAbs
import proofs.«136674_j88175678587514_2_alg».proof.Proof.FrameK.Quantize
import proofs.«136674_j88175678587514_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffer contents between items -/

/-- At launch. -/
abbrev B0 : Dev nD → Valuation τ sig (Elt F) := fun c b => m (c, b)
/-- After the first reshape: the group-maximum launch begins here. -/
abbrev B1 : Dev nD → Valuation τ sig (Elt F) := fun c => StableHlo.after hostOps0 (B0 m c)
abbrev R1 : (c : Dev nD) → (b : Ref sig .tc) → Buf (Elt F) ((c : Thread nD τ).loc b) := fun c b => B1 m c b
/-- After the group-maximum launch: its arrays at what the pipeline leaves, every other buffer as before. -/
def B2 (c : Dev nD) : Valuation τ sig (Elt F) :=
  Pipeline.withArrays spec0 c (B1 m c) fun w => (mdat (R1 m) c).arrAt w cfg0.N
theorem B2_arr (c : Dev nD) (w : Fin cfg0.W) :
    B2 m c (Proc.devRef .tc (Pipeline.arrRef spec0 w)) = (mdat (R1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev R2 : (c : Dev nD) → (b : Ref sig .tc) → Buf (Elt F) ((c : Thread nD τ).loc b) := fun c b => B2 m c b
theorem max_arrays (c : Dev nD) (w : Fin cfg0.W) : (mdat (R1 m) c).arrAt w cfg0.N = R2 m c (Pipeline.arrRef spec0 w) :=
  (B2_arr m c w).symm
theorem max_others (c : Dev nD) : ∀ b, b ∉ Finset.univ.image (Pipeline.arrRef spec0) → R2 m c b = R1 m c b :=
  fun b hb => B2_of_ne m c b fun w e => hb (Finset.mem_image.mpr ⟨w, Finset.mem_univ _, e⟩)
/-- After each of the five stretches of per-group arithmetic. -/
abbrev B3 : Dev nD → Valuation τ sig (Elt F) := fun c => StableHlo.after hostOps1 (B2 m c)
abbrev B4 : Dev nD → Valuation τ sig (Elt F) := fun c => StableHlo.after hostOps1_1 (B3 m c)
abbrev B5 : Dev nD → Valuation τ sig (Elt F) := fun c => StableHlo.after hostOps1_2 (B4 m c)
abbrev B6 : Dev nD → Valuation τ sig (Elt F) := fun c => StableHlo.after hostOps1_3 (B5 m c)
/-- The quantize launch begins here. -/
abbrev B7 : Dev nD → Valuation τ sig (Elt F) := fun c => StableHlo.after hostOps1_4 (B6 m c)
abbrev R7 : (c : Dev nD) → (b : Ref sig .tc) → Buf (Elt F) ((c : Thread nD τ).loc b) := fun c b => B7 m c b
/-- After the quantize launch. -/
def B8 (c : Dev nD) : Valuation τ sig (Elt F) :=
  Pipeline.withArrays spec1 c (B7 m c) fun w => (qdat (R7 m) c).arrAt w cfg1.N
theorem B8_arr (c : Dev nD) (w : Fin cfg1.W) :
    B8 m c (Proc.devRef .tc (Pipeline.arrRef spec1 w)) = (qdat (R7 m) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
abbrev R8 : (c : Dev nD) → (b : Ref sig .tc) → Buf (Elt F) ((c : Thread nD τ).loc b) := fun c b => B8 m c b
theorem quant_arrays (c : Dev nD) (w : Fin cfg1.W) : (qdat (R7 m) c).arrAt w cfg1.N = R8 m c (Pipeline.arrRef spec1 w) :=
  (B8_arr m c w).symm
theorem quant_others (c : Dev nD) : ∀ b, b ∉ Finset.univ.image (Pipeline.arrRef spec1) → R8 m c b = R7 m c b :=
  fun b hb => B8_of_ne m c b fun w e => hb (Finset.mem_image.mpr ⟨w, Finset.mem_univ _, e⟩)
/-- At the end, after the reshape back. -/
abbrev B9 : Dev nD → Valuation τ sig (Elt F) := fun c => StableHlo.after hostOps2 (B8 m c)

/-! ## A buffer no item writes keeps its launch contents -/

theorem B9_untouched (c : Dev nD) (r : Ref sig .tc)
    (h0 : r ∉ hostOps0_W) (h1 : r ∉ hostOps1_W) (h2 : r ∉ hostOps1_1_W) (h3 : r ∉ hostOps1_2_W) (h4 : r ∉ hostOps1_3_W)
    (h5 : r ∉ hostOps1_4_W) (h6 : r ∉ hostOps2_W) (ha : ∀ w, Pipeline.arrRef spec0 w ≠ r) (hb : ∀ w, Pipeline.arrRef spec1 w ≠ r) :
    B9 m c (Proc.devRef .tc r) = m ((c : Thread nD τ).loc r) :=
  (StableHlo.after_of_writes_sub hostOps2 _ hostOps2_writes h6).trans <|
  (B8_of_ne m c r hb).trans <|
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1).trans <|
  (B2_of_ne m c r ha).trans <|
  (StableHlo.after_of_writes_sub hostOps0 _ hostOps0_writes h0).trans rfl

/-! ## The launches' proof data, and what rides along -/

/-- No launch reads a table. -/
abbrev noTables : (p : Fin 2) → (pcfgs (F := F) p).Adm := fun p => (cfgs p).toPCfg_adm
/-- Each launch's proof data at the contents it begins from. -/
def bothDats : (p : Fin 2) → (c : Dev nD) → Dat τ (Elt F) Unit ℕ (UR sig nD τ) ℕ (Pipeline.pin (pcfgs (F := F)) noTables p) c
  | ⟨0, _⟩ => fun c => mdat (R1 m) c
  | ⟨1, _⟩ => fun c => qdat (R7 m) c
abbrev noVariants : Variants := Variants.none
abbrev noPairs : GSem nD τ sig → Finset Unit := fun _ => ∅
abbrev noLevels : GSem nD τ sig → Unit → ℕ := fun _ _ => 0
/-- Beside the buffers, through every item: the generator register at some state, and the core owing nothing. -/
abbrev aside (c : Dev nD) : sProp 𝕄 := iprop((∃ r, prngReg c r) ∗ ∃ W, owes (c : Thread nD τ) (0 : CellTallies nD τ sig Unit) W)
/-- A stretch of host operations as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W aside
theorem mem_outer (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev atEnd (c : Dev nD) : sProp 𝕄 := iprop(StableHlo.held (c : Thread nD τ) (Pipeline.ucRefs τ sig) (B9 m c) ∗ ∃ r, prngReg c r)

/-! ## The two launches as segments -/

set_option backward.isDefEq.respectTransparency.types false in
/-- The group-maximum launch: entered with every outer buffer at `B1`, left with them at `B2`. Its two arrays are split
    out of the outer buffers on entry and put back at their final contents on exit; the generator register goes into what
    is carried and comes back; nothing is owed. -/
def maxRegion : Pipeline.RegionSeg (pcfgs (F := F)) noTables (bothDats m) () defs₀ noVariants noPairs noLevels 0 where
  win := launch0.win.to₀
  block_pos := launch0.block_pos
  stage_whole := launch0.stage_whole
  K := PEmpty
  osem k := k.elim
  ho := Pipeline.OwnSemFacts.none _
  hbody c := (max_obligation (R1 m) c).loose
  hwaits := Pipeline.hwaits_of_owed_zero _ _ _ _ noPairs noLevels 0 fun _ _ => rfl
  pre c := iprop(StableHlo.held (c : Thread nD τ) (Pipeline.ucRefs τ sig) (B1 m c) ∗ aside c)
  post c := iprop(StableHlo.held (c : Thread nD τ) (Pipeline.ucRefs τ sig) (B2 m c) ∗ aside c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) noTables (bothDats m) launch0.win launch0.arr_whole c
      ((bothDats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (noTables (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h1.trans (carried_in (R1 m) c)
  hout c := by
    rw [Pipeline.ownSems0_none]
    have h2 : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (carried_out (R1 m) c).trans h2
  hexit c := by
    have hjoin := Pipeline.unscopedBufs_of_arrays (p := 0) (pcfgs (F := F)) noTables (Ix := Unit) (Name := ℕ) (U := UR sig nD τ) (Lvl := ℕ)
      launch0.win launch0.arr_whole c (bothDats m) ((bothDats m 0 c).share_full fun _ => rfl)
      (R1 m c) (R2 m c) ((bothDats m 0 c).arrAt · cfg0.N) (max_arrays m c) (max_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The quantize launch: entered with every outer buffer at `B7`, left with them at `B8`. -/
def quantRegion : Pipeline.RegionSeg (pcfgs (F := F)) noTables (bothDats m) () defs₀ noVariants noPairs noLevels 1 where
  win := launch1.win.to₀
  block_pos := launch1.block_pos
  stage_whole := launch1.stage_whole
  K := PEmpty
  osem k := k.elim
  ho := Pipeline.OwnSemFacts.none _
  hbody c := (quant_obligation (R7 m) c).loose
  hwaits := Pipeline.hwaits_of_owed_zero _ _ _ _ noPairs noLevels 1 fun _ _ => rfl
  pre c := iprop(StableHlo.held (c : Thread nD τ) (Pipeline.ucRefs τ sig) (B7 m c) ∗ aside c)
  post c := iprop(StableHlo.held (c : Thread nD τ) (Pipeline.ucRefs τ sig) (B8 m c) ∗ aside c)
  X c := iprop(∃ r, prngReg c r)
  Y c := iprop(∃ r, prngReg c r)
  Z c := Pipeline.unscopedRest (Ix := Unit) (Name := ℕ) (U := UR sig nD τ) (Lvl := ℕ) spec1 c (R7 m c)
  hentry c := by
    rw [Pipeline.ownSems0_none]
    have hsplit := Pipeline.arrays_of_unscopedBufs (p := 1) (pcfgs (F := F)) noTables (bothDats m) launch1.win launch1.arr_whole c
      ((bothDats m 1 c).share_full fun _ => rfl) (R7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (bothDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (bothDats m) ((bothDats m 1 c).share_full fun _ => rfl)
      (R7 m c) (R8 m c) ((bothDats m 1 c).arrAt · cfg1.N) (quant_arrays m c) (quant_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its nine items, and the launch -/

abbrev items : List (Pipeline.Seg (pcfgs (F := F)) noTables (bothDats m) () defs₀ noVariants noPairs noLevels) :=
  [ .host (stretch hostOps0 hostOps0_sub hostOps0_fresh (B0 m)),
    .region (maxRegion m),
    .host (stretch hostOps1 hostOps1_sub hostOps1_fresh (B2 m)),
    .host (stretch hostOps1_1 hostOps1_1_sub hostOps1_1_fresh (B3 m)),
    .host (stretch hostOps1_2 hostOps1_2_sub hostOps1_2_fresh (B4 m)),
    .host (stretch hostOps1_3 hostOps1_3_sub hostOps1_3_fresh (B5 m)),
    .host (stretch hostOps1_4 hostOps1_4_sub hostOps1_4_fresh (B6 m)),
    .region (quantRegion m),
    .host (stretch hostOps2 hostOps2_sub hostOps2_fresh (B8 m)) ]

theorem main_is_items (c : Dev nD) : main (F := F) c = Pipeline.Seg.run (items m) := (main_chain c).trans (by chain_rfl)

set_option backward.isDefEq.respectTransparency.types false in
/-- From any memory with zero counters, every weakly fair execution of @main terminates, nothing faulting, and every
    final state has every outer buffer at `B9`. -/
theorem run_to_end : θ_run defs (onTc (τ := τ) (main (F := F))) ⟨m, fun _ => 0, ρ⟩ (fun r => ∀ c : Dev nD,
      ∀ b ∈ Pipeline.ucRefs τ sig, r.2.mem (((c : Thread nD τ)).1, b) = B9 m c b) :=
  Pipeline.θ_run_regions_kit (pcfgs (F := F)) noTables (bothDats m) () cellOf_inj emb₁ defs₀ noVariants noPairs noLevels m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ aside c)) (Tₙ := atEnd m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (B9 m c) ∗ aside c) : sProp 𝕄)
          ⊢ iprop(atEnd m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach noPairs noLevels fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

/-- The frame: every execution terminates and the three argument arrays end as launched — no item writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_outer main_arg0 (by decide))).trans (B9_untouched m c main_arg0 (by decide) (by decide) (by decide) (by decide) (by decide) (by decide) (by decide) (by decide) (by decide)),
     (h c _ (mem_outer main_arg1 (by decide))).trans (B9_untouched m c main_arg1 (by decide) (by decide) (by decide) (by decide) (by decide) (by decide) (by decide) (by decide) (by decide)),
     (h c _ (mem_outer main_arg2 (by decide))).trans (B9_untouched m c main_arg2 (by decide) (by decide) (by decide) (by decide) (by decide) (by decide) (by decide) (by decide) (by decide))⟩)
    (run_to_end m ρ)

end Cert.Kernel.Hand

end
-- ==== Proof.FrameKI.MaxCases.lean ====
/-
  The group-maximum launch: 128 grid points, point t taking rows 32t … 32t+31 of the grouped weight [4096, 512, 32]; a
  scratch vector [512] carries the running maximum from point to point (reset to zero at the first point), and the result
  vector [512] is stored at the last point only. This module: the two conditions of the body decided over the grid, where
  the result window is idle, and the body run in each of the three cases the grid meets — the first point (reset, then
  accumulate), a middle point (accumulate), the last point (accumulate, then store the result).
-/
import proofs.«136674_j88175678587514_2_alg».proof.Proof.Gen.KernelIdeal.Launch
import proofs.«136674_j88175678587514_2_alg».proof.Proof.Gen.KernelIdeal.Skeleton
import proofs.«136674_j88175678587514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the launch reads -/

/-- Window `w`'s block at point `t`, read off its array as the launch finds it. -/
def mblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds its block at every point, for any proof data over `V` whose body leaves
    that buffer as found. -/
theorem mfound_of {c : Dev nD} (dat : Dat τ (Elt F) Unit ℕ (UR sig nD τ) ℕ cfg0 c) (hA : dat.A 0 = V c (Pipeline.arrRef spec0 0))
    (hafter : ∀ t, dat.after 0 t = mblk V c 0 t) (t : Fin cfg0.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)

/-! ## The body's two conditions -/

/-- "This is the first point": the body's first branch, from the grid coordinate. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 128 = 0 :=
  (by decide +kernel : ∀ t : Fin grid0.N, isFirst (grid0.coords t) ↔ t.val % 128 = 0)

/-- "This is the last point": the body's second branch. -/
abbrev isLast (i : grid0.Coords) : Prop := k0_cond2 i = 1#1
theorem isLast_iff : ∀ t : Fin cfg0.N, isLast (grid0.coords t) ↔ t.val % 128 = 127 :=
  (by decide +kernel : ∀ t : Fin grid0.N, isLast (grid0.coords t) ↔ t.val % 128 = 127)

/-! ## Where the windows are idle -/

theorem weight_live : ∀ t : Fin cfg0.N, cfg0.idle 0 (grid0.coords t) = false := by decide +kernel
/-- Before the last point the result window is idle (nothing stored into it) and not written back. -/
theorem result_idle : ∀ t : Fin cfg0.N, ¬isLast (grid0.coords t) → cfg0.idle 1 (grid0.coords t) = true := by decide +kernel
theorem result_kept : ∀ t : Fin cfg0.N, ¬isLast (grid0.coords t) → (cfg0.win 1).flush t = false := by decide +kernel
/-- At the last point it is live. -/
theorem result_live : ∀ t : Fin cfg0.N, isLast (grid0.coords t) → cfg0.idle 1 (grid0.coords t) = false := by decide +kernel

/-! ## The buffers the body is handed -/

/-- The result window's one staging buffer and the scratch, as views: their contents are stated through them. -/
abbrev resV : View sig .tc .vmem S512 .f32 := (Memref.whole cc0_stg1_0 : Memref sig .tc .vmem S512 .f32).view
abbrev accM : Memref sig .tc .vmem S512 .f32 := Memref.whole cc0_scratch0
abbrev accV : View sig .tc .vmem S512 .f32 := accM.view
/-- Each window's current staging buffer at point `t`, as the pipeline passes it. -/
abbrev wM (t : Fin cfg0.N) : Memref sig .tc .vmem S32x512x32 .f32 := win0_0.stage (cfg0.slots t 0)
abbrev wMh (t : Fin cfg0.N) : (wM t).IsWhole := hstage0_0 ((cfg0.slots t 0).cast nbuf0_0)
abbrev rM (t : Fin cfg0.N) : Memref sig .tc .vmem S512 .f32 := win0_1.stage (cfg0.slots t 1)
abbrev rMh (t : Fin cfg0.N) : (rM t).IsWhole := hstage0_1 ((cfg0.slots t 1).cast nbuf0_1)

/-- The other launch's six staging buffers, each whole at some contents: scoped storage this launch never touches. -/
def spare (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the body besides the windows: the scratch at some contents, that spare storage, and the
    generator register. -/
theorem carried_eq (c : Dev nD) :
    (Pipeline.ΦA spec0 c : sProp 𝕄)
      = iprop(iprop((∃ d, owns (c : Thread nD τ) accM fullShare d) ∗ spare (F := F) c) ∗ (∃ r, prngReg c r)) := by
  unfold Pipeline.ΦA spare; rw [scopedRest0_eq]; simp only [accM, owns_whole]; try rfl

/-! ## The body, case by case -/

set_option maxHeartbeats 1000000 in
/-- FIRST POINT. The weight buffer at `x0`, the result buffer at `xi` (handed back untouched), the scratch at anything:
    the body ends with the scratch holding the stores `LS` it made (found by running it). -/
noncomputable def runFirst (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : isFirst i) (hc1 : ¬isLast i) (x0 : Vec F S32x512x32 .f32) :
    { LS : List (View.Piece (Elt F) S512 .f32) //
      ∀ (xi : Vec F S512 .f32) (E : Set ℕ) (K : PUnit → sProp 𝕄),
        iprop(owns (c : Thread nD τ) arg1 fullShare x0 ∗ owns (c : Thread nD τ) arg2 fullShare xi ∗ (∃ d, owns (c : Thread nD τ) arg3 fullShare d)
            ∗ (iprop(owns (c : Thread nD τ) arg1 fullShare x0 ∗ owns (c : Thread nD τ) arg2 fullShare xi
                ∗ (∃ f, arg3.view.loc (c : Thread nD τ) ↦[arg3.view.set]{fullShare} arg3.view.writes (Elt F) f LS)) -∗ K ⟨⟩))
          ⊢ wp frame (wpE (defs₀ (F := F)) Variants.none c none) E (cc0__maxabs_kernel i arg1 harg1 arg2 harg2 arg3 harg3) K } := by
  refine ⟨?_, fun xi E K => ?run⟩
  case run =>
    simp only [cc0__maxabs_kernel_eq_skeleton]; unfold cc0__maxabs_kernel_skel
    unfold owns
    iintro ⟨⟨%f0, %hf0, H0⟩, ⟨%f1, %hf1, H1⟩, ⟨%ds, %fs, -, HS⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 1000000 in
/-- A MIDDLE POINT. As above, the scratch now at the contents `xs` the point before left. -/
noncomputable def runMid (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : ¬isLast i) (x0 : Vec F S32x512x32 .f32) (xs : Vec F S512 .f32) :
    { LS : List (View.Piece (Elt F) S512 .f32) //
      ∀ (xi : Vec F S512 .f32) (E : Set ℕ) (K : PUnit → sProp 𝕄),
        iprop(owns (c : Thread nD τ) arg1 fullShare x0 ∗ owns (c : Thread nD τ) arg2 fullShare xi ∗ owns (c : Thread nD τ) arg3 fullShare xs
            ∗ (iprop(owns (c : Thread nD τ) arg1 fullShare x0 ∗ owns (c : Thread nD τ) arg2 fullShare xi
                ∗ (∃ f, arg3.view.loc (c : Thread nD τ) ↦[arg3.view.set]{fullShare} arg3.view.writes (Elt F) f LS)) -∗ K ⟨⟩))
          ⊢ wp frame (wpE (defs₀ (F := F)) Variants.none c none) E (cc0__maxabs_kernel i arg1 harg1 arg2 harg2 arg3 harg3) K } := by
  refine ⟨?_, fun xi E K => ?run⟩
  case run =>
    simp only [cc0__maxabs_kernel_eq_skeleton]; unfold cc0__maxabs_kernel_skel
    unfold owns
    iintro ⟨⟨%f0, %hf0, H0⟩, ⟨%f1, %hf1, H1⟩, ⟨%fs, %hfs, HS⟩, Hk⟩
    obtain rfl := harg1.eq_unread hf0; obtain rfl := harg2.eq_unread hf1; obtain rfl := harg3.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 1000000 in
/-- THE LAST POINT. The result buffer at anything; the body ends with it holding the stores `L1` and the scratch the
    stores `LS`. -/
noncomputable def runLast (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : isLast i) (x0 : Vec F S32x512x32 .f32) (xs : Vec F S512 .f32) :
    Σ' (L1 : List (View.Piece (Elt F) S512 .f32)), { LS : List (View.Piece (Elt F) S512 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f LS)) -∗ K ⟨⟩))
          ⊢ wp frame (wpE (defs₀ (F := F)) Variants.none c none) E (cc0__maxabs_kernel i arg1 harg1 arg2 harg2 arg3 harg3) K } := by
  refine ⟨?_, ?_, fun E K => ?run⟩
  case run =>
    simp only [cc0__maxabs_kernel_eq_skeleton]; unfold cc0__maxabs_kernel_skel
    unfold owns
    iintro ⟨⟨%f0, %hf0, H0⟩, ⟨%d1, %f1, -, H1⟩, ⟨%fs, %hfs, HS⟩, Hk⟩
    obtain rfl := harg1.eq_unread hf0; obtain rfl := harg3.eq_unread hfs
    sl_exec (disch := first | exact hc0 | exact hc1)
    sl_step
    iapply Hk
    isplitl [H0]
    · iexists _; isplitr; · ipureintro; exact harg1.read_unread _
      iexact H0
    isplitl [H1]; · iexists _; iexact H1
    iexists _; iexact HS

end Cert.KernelIdeal.Hand

end
-- ==== Proof.FrameKI.MaxAbs.lean ====
/-
  The group-maximum launch, continued: what the scratch holds after each point, by recursion on the point — after the
  first point what the first case's stores leave, after a later point what that point's case leaves when it starts from
  what the point before left —, the proof data built on it (the result window's block at the last point is what the
  last case stores; the scratch's contents ride in what is carried from point to point), and the body obligation at
  every point.
-/
import proofs.«136674_j88175678587514_2_alg».proof.Proof.FrameKI.MaxCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Each case's stores into the scratch tile it. -/
theorem first_cover (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : isFirst i) (hc1 : ¬isLast i) (x0 : Vec F S32x512x32 .f32) (y : S512.Idx) :
    ∃ pc ∈ (runFirst c i arg1 harg1 arg2 harg2 arg3 harg3 hc0 hc1 x0).1, y ∈ pc.1.set :=
  View.cover_of_tiledL (runFirst c i arg1 harg1 arg2 harg2 arg3 harg3 hc0 hc1 x0).1 S512.size (by sl_kernel_rfl) y
theorem mid_cover (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : ¬isLast i) (x0 : Vec F S32x512x32 .f32) (xs : Vec F S512 .f32) (y : S512.Idx) :
    ∃ pc ∈ (runMid c i arg1 harg1 arg2 harg2 arg3 harg3 hc0 hc1 x0 xs).1, y ∈ pc.1.set :=
  View.cover_of_tiledL (runMid c i arg1 harg1 arg2 harg2 arg3 harg3 hc0 hc1 x0 xs).1 S512.size (by sl_kernel_rfl) y
theorem last_cover (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : isLast i) (x0 : Vec F S32x512x32 .f32) (xs : Vec F S512 .f32) (y : S512.Idx) :
    ∃ pc ∈ (runLast c i arg1 harg1 arg2 harg2 arg3 harg3 hc0 hc1 x0 xs).2.1, y ∈ pc.1.set :=
  View.cover_of_tiledL (runLast c i arg1 harg1 arg2 harg2 arg3 harg3 hc0 hc1 x0 xs).2.1 S512.size (by sl_kernel_rfl) y
/-- The last case's store into the result buffer tiles it. -/
theorem result_cover (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : isLast i) (x0 : Vec F S32x512x32 .f32) (xs : Vec F S512 .f32) (y : S512.Idx) :
    ∃ pc ∈ (runLast c i arg1 harg1 arg2 harg2 arg3 harg3 hc0 hc1 x0 xs).1, y ∈ pc.1.set :=
  View.cover_of_tiledL (runLast c i arg1 harg1 arg2 harg2 arg3 harg3 hc0 hc1 x0 xs).1 S512.size (by sl_kernel_rfl) y

/-- The scratch after the first point / a middle point / the last point: the case's stores read back. -/
def accFirst (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : isFirst i) (hc1 : ¬isLast i) (x0 : Vec F S32x512x32 .f32) : Vec F S512 .f32 :=
  accV.read (Elt F) (accV.writes (Elt F) accV.junk (runFirst c i arg1 harg1 arg2 harg2 arg3 harg3 hc0 hc1 x0).1)
def accMid (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : ¬isLast i) (x0 : Vec F S32x512x32 .f32) (xs : Vec F S512 .f32) : Vec F S512 .f32 :=
  accV.read (Elt F) (accV.writes (Elt F) accV.junk (runMid c i arg1 harg1 arg2 harg2 arg3 harg3 hc0 hc1 x0 xs).1)
def accLast (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : isLast i) (x0 : Vec F S32x512x32 .f32) (xs : Vec F S512 .f32) : Vec F S512 .f32 :=
  accV.read (Elt F) (accV.writes (Elt F) accV.junk (runLast c i arg1 harg1 arg2 harg2 arg3 harg3 hc0 hc1 x0 xs).2.1)
/-- The result buffer after the last point. -/
def resLast (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : isLast i) (x0 : Vec F S32x512x32 .f32) (xs : Vec F S512 .f32) : Vec F S512 .f32 :=
  resV.read (Elt F) (resV.writes (Elt F) resV.junk (runLast c i arg1 harg1 arg2 harg2 arg3 harg3 hc0 hc1 x0 xs).1)
/-- Before the last point nothing is stored into the result buffer: a placeholder nothing reads. -/
def resNone : Vec F S512 .f32 := resV.read (Elt F) (resV.writes (Elt F) resV.junk [])

/-! ## The accumulation over the points -/

/-- What the result buffer (first component) and the scratch (second) hold after the body at point `n`. -/
def heldAt (c : Dev nD) : (n : ℕ) → n < cfg0.N → Vec F S512 .f32 × Vec F S512 .f32
  | 0, hn => (resNone, accFirst c (grid0.coords ⟨0, hn⟩) (wM ⟨0, hn⟩) (wMh ⟨0, hn⟩) (rM ⟨0, hn⟩) (rMh ⟨0, hn⟩) accM (Memref.isWhole_whole _)
      ((isFirst_iff ⟨0, hn⟩).mpr (Nat.zero_mod _)) (fun h => (fun h => by (try dsimp only at h); omega) ((isLast_iff ⟨0, hn⟩).mp h)) (mblk V c 0 ⟨0, hn⟩))
  | n + 1, hn =>
    if h0 : (n + 1) % 128 = 0 then
      False.elim (by have hN : n + 1 < 128 := lt_of_lt_of_eq hn (show cfg0.N = 128 from N_0); omega)
    else
      if h1 : (n + 1) % 128 = 127 then
        (resLast c (grid0.coords ⟨n + 1, hn⟩) (wM ⟨n + 1, hn⟩) (wMh ⟨n + 1, hn⟩) (rM ⟨n + 1, hn⟩) (rMh ⟨n + 1, hn⟩) accM (Memref.isWhole_whole _)
            (fun h => h0 ((isFirst_iff ⟨n + 1, hn⟩).mp h)) ((isLast_iff ⟨n + 1, hn⟩).mpr h1) (mblk V c 0 ⟨n + 1, hn⟩) (heldAt c n (Nat.lt_of_succ_lt hn)).2,
         accLast c (grid0.coords ⟨n + 1, hn⟩) (wM ⟨n + 1, hn⟩) (wMh ⟨n + 1, hn⟩) (rM ⟨n + 1, hn⟩) (rMh ⟨n + 1, hn⟩) accM (Memref.isWhole_whole _)
            (fun h => h0 ((isFirst_iff ⟨n + 1, hn⟩).mp h)) ((isLast_iff ⟨n + 1, hn⟩).mpr h1) (mblk V c 0 ⟨n + 1, hn⟩) (heldAt c n (Nat.lt_of_succ_lt hn)).2)
      else
        (resNone,
         accMid c (grid0.coords ⟨n + 1, hn⟩) (wM ⟨n + 1, hn⟩) (wMh ⟨n + 1, hn⟩) (rM ⟨n + 1, hn⟩) (rMh ⟨n + 1, hn⟩) accM (Memref.isWhole_whole _)
            (fun h => h0 ((isFirst_iff ⟨n + 1, hn⟩).mp h)) (fun h => h1 ((isLast_iff ⟨n + 1, hn⟩).mp h)) (mblk V c 0 ⟨n + 1, hn⟩) (heldAt c n (Nat.lt_of_succ_lt hn)).2)

theorem heldAt_first (c : Dev nD) (t : Fin cfg0.N) (h0 : t.val % 128 = 0) (h1 : ¬t.val % 128 = 127) :
    heldAt V c t.val t.isLt = (resNone, accFirst c (grid0.coords t) (wM t) (wMh t) (rM t) (rMh t) accM (Memref.isWhole_whole _)
      ((isFirst_iff t).mpr h0) (fun h => h1 ((isLast_iff t).mp h)) (mblk V c 0 t)) := by
  obtain ⟨n, hn⟩ := t
  cases n with
  | zero => exact rfl
  | succ n => exact (by exfalso; have hN : n + 1 < 128 := lt_of_lt_of_eq hn (show cfg0.N = 128 from N_0); (try dsimp only at h0); omega)

theorem heldAt_mid (c : Dev nD) (t : Fin cfg0.N) (h0 : ¬t.val % 128 = 0) (h1 : ¬t.val % 128 = 127) :
    heldAt V c t.val t.isLt = (resNone, accMid c (grid0.coords t) (wM t) (wMh t) (rM t) (rMh t) accM (Memref.isWhole_whole _)
      (fun h => h0 ((isFirst_iff t).mp h)) (fun h => h1 ((isLast_iff t).mp h)) (mblk V c 0 t)
      (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem heldAt_last (c : Dev nD) (t : Fin cfg0.N) (h0 : ¬t.val % 128 = 0) (h1 : t.val % 128 = 127) :
    heldAt V c t.val t.isLt =
      (resLast c (grid0.coords t) (wM t) (wMh t) (rM t) (rMh t) accM (Memref.isWhole_whole _)
        (fun h => h0 ((isFirst_iff t).mp h)) ((isLast_iff t).mpr h1) (mblk V c 0 t) (heldAt V c (t.val - 1) (Nat.lt_of_le_of_lt (Nat.sub_le _ _) t.isLt)).2,
       accLast c (grid0.coords t) (wM t) (wMh t) (rM t) (rMh t) accM (Memref.isWhole_whole _)
        (fun h => h0 ((isFirst_iff t).mp h)) ((isLast_iff t).mpr h1) (mblk V c 0 t) (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## What is carried from point to point -/

/-- Before the first point: what the launch hands over (the scratch at anything). Before point `n + 1`: the scratch at
    what point `n` left in it, the spare storage, the generator register. -/
def carried (c : Dev nD) : (n : ℕ) → n ≤ cfg0.N → sProp 𝕄
  | 0, _ => Pipeline.ΦA spec0 c
  | n + 1, hn => iprop(iprop(owns (c : Thread nD τ) accM fullShare ((heldAt V c n hn).2) ∗ spare (F := F) c) ∗ (∃ r, prngReg c r))

theorem carried_zero (c : Dev nD) (n : ℕ) (h : n ≤ cfg0.N) (hz : n = 0) : carried V c n h = Pipeline.ΦA spec0 c := by
  subst hz; rfl
theorem carried_succ (c : Dev nD) (n : ℕ) (hn : n < cfg0.N) :
    carried V c (n + 1) hn = iprop(iprop(owns (c : Thread nD τ) accM fullShare ((heldAt V c n hn).2) ∗ spare (F := F) c) ∗ (∃ r, prngReg c r)) := rfl
theorem carried_pos (c : Dev nD) (n : ℕ) (h : n ≤ cfg0.N) (hz : n ≠ 0) :
    carried V c n h = iprop(iprop(owns (c : Thread nD τ) accM fullShare ((heldAt V c (n - 1) (by omega)).2) ∗ spare (F := F) c) ∗ (∃ r, prngReg c r)) := by
  cases n with
  | zero => exact absurd rfl hz
  | succ n => rfl

/-! ## The proof data -/

def mdat (c : Dev nD) : Dat τ (Elt F) Unit ℕ (UR sig nD τ) ℕ cfg0 c where
  A w := V c (Pipeline.arrRef spec0 w)
  after w t := match w with
    | ⟨0, _⟩ => mblk V c 0 t
    | ⟨1, _⟩ => (heldAt V c t.val t.isLt).1
  Φ t := carried V c t.val (Nat.le_of_lt_succ t.isLt)
  q _ := fullShare
  owed _ := 0

theorem mdat_A (c : Dev nD) (w : Fin cfg0.W) : (mdat V c).A w = V c (Pipeline.arrRef spec0 w) := by dsimp only [mdat]
theorem carried_castSucc (c : Dev nD) (t : Fin cfg0.N) :
    (mdat V c).Φ t.castSucc = carried V c t.val (Nat.le_of_lt t.isLt) := by
  dsimp only [mdat]; simp only [Fin.coe_castSucc]
theorem mafter_0 (c : Dev nD) (t : Fin cfg0.N) : (mdat V c).after 0 t = mblk V c 0 t := by dsimp only [mdat]
theorem mafter_1 (c : Dev nD) (t : Fin cfg0.N) : (mdat V c).after 1 t = (heldAt V c t.val t.isLt).1 := by dsimp only [mdat]
theorem mfound (c : Dev nD) (t : Fin cfg0.N) (d) : (mdat V c).before 0 t d = mblk V c 0 t :=
  mfound_of V (mdat V c) (mdat_A V c 0) (mafter_0 V c) t d

/-! ## The body obligation -/

def mpre (c : Dev nD) (t : Fin cfg0.N) : sProp 𝕄 :=
  iprop((mdat V c).Φ t.castSucc ∗ (mdat V c).owesAt () t.castSucc
    ∗ (∃ d, owns (c : Thread nD τ) (wM t) fullShare ((mdat V c).before 0 t d))
    ∗ (∃ d, owns (c : Thread nD τ) (rM t) fullShare ((mdat V c).before 1 t d)))

def mpost (c : Dev nD) (t : Fin cfg0.N) : sProp 𝕄 :=
  iprop((mdat V c).Φ t.succ ∗ (mdat V c).owesAt () t.succ
    ∗ (mdat V c).leavesExact 0 t
    ∗ (mdat V c).leavesExact 1 t)

set_option maxHeartbeats 4800000 in
/-- The body at any point. The weight buffer holds its block; the point's position selects the case; what is carried
    hands the body the scratch at what the point before left (at anything, at the first point) and takes it back at this
    point's contents; before the last point the result buffer goes back as found. -/
theorem max_point (c : Dev nD) (t : Fin cfg0.N) :
    mpre V c t ⊢ wp frame (wpE (defs₀ (F := F)) Variants.none c none) Set.univ (bodyAt0 t) (fun _ => mpost V c t) := by
  unfold mpre mpost bodyAt0
  simp only [mfound]
  rw [show (mdat V c).owesAt () t.succ = (mdat V c).owesAt () t.castSucc from rfl]
  rw [show (mdat V c).Φ t.succ = carried V c (t.val + 1) t.isLt from rfl, carried_succ]
  have hN : t.val < 128 := lt_of_lt_of_eq t.isLt (show cfg0.N = 128 from N_0)
  rw [show (mdat V c).leavesExact 0 t = owns (c : Thread nD τ) (wM t) fullShare ((mdat V c).after 0 t) from by
    unfold Dat.leavesExact; rw [weight_live t], mafter_0]
  by_cases h0 : t.val % 128 = 0
  · have h1 : ¬t.val % 128 = 127 := by omega
    have hz : t.val = 0 := by omega
    rw [Dat.leavesExact_idle (mdat V c) 1 t (result_idle t (fun h => h1 ((isLast_iff t).mp h))) (result_kept t (fun h => h1 ((isLast_iff t).mp h)))]
    rw [heldAt_first V c t h0 h1]
    unfold accFirst; (try dsimp only)
    rw [carried_castSucc V c t, carried_zero V c _ _ hz, carried_eq]
    iintro ⟨⟨⟨HS, Hsp⟩, Hg⟩, Ho, ⟨%d0, H0⟩, ⟨%d1, H1⟩⟩
    iapply ((runFirst c (grid0.coords t) _ _ _ _ _ _ ((isFirst_iff t).mpr h0) (fun h => h1 ((isLast_iff t).mp h)) (mblk V c 0 t)).2 _ Set.univ _)
    isplitl [H0]; · iexact H0
    isplitl [H1]; · iexact H1
    isplitl [HS]; · iexact HS
    iintro ⟨H0, H1, ⟨%es, HS⟩⟩
    isplitl [HS Hsp Hg]
    · isplitl [HS Hsp]
      · isplitl [HS]
        · unfold owns; iexists _; isplitr
          swap; · iexact HS
          ipureintro; exact View.read_writes_of_cover _ _ _ _ _ (first_cover c _ _ _ _ _ _ _ _ _ _)
        iexact Hsp
      iexact Hg
    isplitl [Ho]; · iexact Ho
    isplitl [H0]; · iexact H0
    iexists _; iexact H1
  · have hz : t.val ≠ 0 := fun h => h0 (by rw [h])
    by_cases h1 : t.val % 128 = 127
    · rw [show (mdat V c).leavesExact 1 t = owns (c : Thread nD τ) (rM t) fullShare ((mdat V c).after 1 t) from by
        unfold Dat.leavesExact; rw [result_live t ((isLast_iff t).mpr h1)], mafter_1]
      rw [heldAt_last V c t h0 h1]
      unfold resLast accLast; (try dsimp only)
      rw [carried_castSucc V c t, carried_pos V c _ _ hz]
      iintro ⟨⟨⟨HS, Hsp⟩, Hg⟩, Ho, ⟨%d0, H0⟩, ⟨%d1, H1⟩⟩
      iapply ((runLast c (grid0.coords t) _ _ _ _ _ _ (fun h => h0 ((isFirst_iff t).mp h)) ((isLast_iff t).mpr h1) (mblk V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hsp Hg]
      · isplitl [HS Hsp]
        · isplitl [HS]
          · unfold owns; iexists _; isplitr
            swap; · iexact HS
            ipureintro; exact View.read_writes_of_cover _ _ _ _ _ (last_cover c _ _ _ _ _ _ _ _ _ _ _)
          iexact Hsp
        iexact Hg
      isplitl [Ho]; · iexact Ho
      isplitl [H0]; · iexact H0
      unfold owns; iexists _; isplitr
      swap; · iexact H1
      ipureintro; exact View.read_writes_of_cover _ _ _ _ _ (result_cover c _ _ _ _ _ _ _ _ _ _ _)
    · rw [Dat.leavesExact_idle (mdat V c) 1 t (result_idle t (fun h => h1 ((isLast_iff t).mp h))) (result_kept t (fun h => h1 ((isLast_iff t).mp h)))]
      rw [heldAt_mid V c t h0 h1]
      unfold accMid; (try dsimp only)
      rw [carried_castSucc V c t, carried_pos V c _ _ hz]
      iintro ⟨⟨⟨HS, Hsp⟩, Hg⟩, Ho, ⟨%d0, H0⟩, ⟨%d1, H1⟩⟩
      iapply ((runMid c (grid0.coords t) _ _ _ _ _ _ (fun h => h0 ((isFirst_iff t).mp h)) (fun h => h1 ((isLast_iff t).mp h)) (mblk V c 0 t) _).2 _ Set.univ _)
      isplitl [H0]; · iexact H0
      isplitl [H1]; · iexact H1
      isplitl [HS]; · iexact HS
      iintro ⟨H0, H1, ⟨%es, HS⟩⟩
      isplitl [HS Hsp Hg]
      · isplitl [HS Hsp]
        · isplitl [HS]
          · unfold owns; iexists _; isplitr
            swap; · iexact HS
            ipureintro; exact View.read_writes_of_cover _ _ _ _ _ (mid_cover c _ _ _ _ _ _ _ _ _ _ _)
          iexact Hsp
        iexact Hg
      isplitl [Ho]; · iexact Ho
      isplitl [H0]; · iexact H0
      iexists _; iexact H1

theorem max_obligation (c : Dev nD) : BodyObligation (mdat (F := F) V c) (defs₀ (F := F)) Variants.none () Set.univ := fun t => by
  rw [bigSep_W0, bigSep_W0]
  exact max_point V c t

/-- What the launch hands over is what is carried before the first point; after the last point what is carried gives it
    back, the scratch's contents forgotten. -/
theorem carried_in (c : Dev nD) : Pipeline.ΦA spec0 c ⊢ (mdat V c).Φ 0 := by
  rw [show (mdat V c).Φ 0 = carried V c 0 (Nat.zero_le _) from rfl, carried_zero V c 0 _ rfl]
  try exact Idealize.SL.BI.Entails.refl _

theorem carried_out (c : Dev nD) : (mdat V c).Φ (Fin.last cfg0.N) ⊢ Pipeline.ΦA spec0 c := by
  have hne : (Fin.last cfg0.N).val ≠ 0 := by rw [Fin.val_last]; have : cfg0.N = 128 := N_0; omega
  rw [show (mdat V c).Φ (Fin.last cfg0.N) = carried V c (Fin.last cfg0.N).val (Nat.le_of_lt_succ (Fin.last cfg0.N).isLt) from rfl,
    carried_pos V c _ _ hne, carried_eq]
  iintro ⟨⟨HS, Hsp⟩, Hg⟩
  isplitl [HS Hsp]
  · isplitl [HS]
    · iexists _; iexact HS
    iexact Hsp
  iexact Hg

end Cert.KernelIdeal.Hand

end
-- ==== Proof.FrameKI.Quantize.lean ====
/-
  The quantize launch: 256 grid points, point t taking rows 16t … 16t+15 of the grouped weight [4096, 512, 32]
  together with the two per-group vectors (scale and shift, each [512], the same block at every point), and writing
  rows 16t … 16t+15 of the result. Stated at any float instance and for ANY contents `V` of the buffers when the launch
  begins: what the body leaves in the result's staging buffer is ONE store of the body's arithmetic (`k1_pay1`) of the
  three input blocks; the input buffers are left as found.
-/
import proofs.«136674_j88175678587514_2_alg».proof.Proof.Gen.KernelIdeal.Launch
import proofs.«136674_j88175678587514_2_alg».proof.Proof.Gen.KernelIdeal.Skeleton
import proofs.«136674_j88175678587514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the launch reads -/

/-- Window `w`'s block at point `t`, read off its array as the launch finds it. -/
def qblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point — fetched there, or fetched earlier with the block
    index unmoved since — for any proof data over `V` whose body leaves that buffer as found (one statement per window:
    the block types are those of the literal window). -/
theorem qfound0_of {c : Dev nD} (dat : Dat τ (Elt F) Unit ℕ (UR sig nD τ) ℕ cfg1 c)
    (hA : dat.A 0 = V c (Pipeline.arrRef spec1 0)) (hafter : ∀ t, dat.after 0 t = qblk V c 0 t) (t : Fin cfg1.N) (d) :
    dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)
theorem qfound1_of {c : Dev nD} (dat : Dat τ (Elt F) Unit ℕ (UR sig nD τ) ℕ cfg1 c)
    (hA : dat.A 1 = V c (Pipeline.arrRef spec1 1)) (hafter : ∀ t, dat.after 1 t = qblk V c 1 t) (t : Fin cfg1.N) (d) :
    dat.before 1 t d = qblk V c 1 t :=
  (dat.before_in_eq_fetched 1 rfl (fun _ => rfl) (fun _ _ _ => rfl) (fun t => by rw [hafter]; unfold Dat.blockOf qblk; rw [hA]; try rfl) t d).trans
    (by unfold Dat.fetched Dat.blockOf qblk; rw [hA]; try rfl)
theorem qfound2_of {c : Dev nD} (dat : Dat τ (Elt F) Unit ℕ (UR sig nD τ) ℕ cfg1 c)
    (hA : dat.A 2 = V c (Pipeline.arrRef spec1 2)) (hafter : ∀ t, dat.after 2 t = qblk V c 2 t) (t : Fin cfg1.N) (d) :
    dat.before 2 t d = qblk V c 2 t :=
  (dat.before_in_eq_fetched 2 rfl (fun _ => rfl) (fun _ _ _ => rfl) (fun t => by rw [hafter]; unfold Dat.blockOf qblk; rw [hA]; try rfl) t d).trans
    (by unfold Dat.fetched Dat.blockOf qblk; rw [hA]; try rfl)

/-! ## What the body stores -/

/-- The whole weight / result block, and the whole per-group vector, as rectangles. -/
abbrev rW : Rect S16x512x32 := Rect.unit (s := S16x512x32) ![0, 0, 0] S16x512x32.size inb_S16x512x32_S16x512x32_0_0_0
abbrev rG : Rect S512 := Rect.unit (s := S512) ![0] S512.size inb_S512_S512_0

/-- The result block after the body, from the three input blocks: its one store. -/
def qout (x0 : Vec F S16x512x32 .f32) (x1 : Vec F S512 .f32) (x2 : Vec F S512 .f32) : Vec F S16x512x32 .f32 :=
  View.canon [⟨rW, k1_pay1 (View.ld x0 rW) (View.ld x1 rG) (View.ld x2 rG)⟩]

/-- That store covers the block. -/
theorem qcover (p0 : Vec F S16x512x32 .f32) (y : S16x512x32.Idx) :
    ∃ pc ∈ ([⟨rW, p0⟩] : List (View.Piece (Elt F) S16x512x32 .f32)), y ∈ pc.1.set :=
  View.cover_of_tiled [⟨rW, p0⟩] S16x512x32.size (by rfl) y

/-! ## The body's run -/

set_option maxHeartbeats 1000000 in
/-- On whole staging buffers — the three inputs' at contents `x0 x1 x2`, the result's at anything — the body runs to
    its end leaving the inputs' as they were and the result's at `qout x0 x1 x2`. -/
theorem quant_body_run (c : Dev nD) (E : Set ℕ) (i : grid1.Coords)
    (arg1 : Memref sig .tc .vmem S16x512x32 .f32) (harg1 : arg1.IsWhole) (arg2 : Memref sig .tc .vmem S512 .f32) (harg2 : arg2.IsWhole)
    (arg3 : Memref sig .tc .vmem S512 .f32) (harg3 : arg3.IsWhole) (arg4 : Memref sig .tc .vmem S16x512x32 .f32) (harg4 : arg4.IsWhole)
    (x0 : Vec F S16x512x32 .f32) (x1 : Vec F S512 .f32) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (qout x0 x1 x2)) -∗ K ⟨⟩))
      ⊢ wp frame (wpE (defs₀ (F := F)) Variants.none c none) E (cc1__quant_kernel i arg1 harg1 arg2 harg2 arg3 harg3 arg4 harg4) K := by
  simp only [cc1__quant_kernel_eq_skeleton]; unfold cc1__quant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (qcover _)

/-! ## The proof data of the launch -/

/-- Arrays as the launch finds them; after the body at point `t` each input buffer at its block and the result's at
    `qout` of the three blocks; nothing carried from point to point, nothing owed. -/
def qdat (c : Dev nD) : Dat τ (Elt F) Unit ℕ (UR sig nD τ) ℕ cfg1 c where
  A w := V c (Pipeline.arrRef spec1 w)
  after w t := match w with
    | ⟨0, _⟩ => qblk V c 0 t
    | ⟨1, _⟩ => qblk V c 1 t
    | ⟨2, _⟩ => qblk V c 2 t
    | ⟨3, _⟩ => qout (qblk V c 0 t) (qblk V c 1 t) (qblk V c 2 t)
  Φ _ := Pipeline.ΦA spec1 c
  q _ := fullShare
  owed _ := 0

theorem qdat_A (c : Dev nD) (w : Fin cfg1.W) : (qdat V c).A w = V c (Pipeline.arrRef spec1 w) := by dsimp only [qdat]
theorem qafter_0 (c : Dev nD) (t : Fin cfg1.N) : (qdat V c).after 0 t = qblk V c 0 t := by dsimp only [qdat]
theorem qafter_1 (c : Dev nD) (t : Fin cfg1.N) : (qdat V c).after 1 t = qblk V c 1 t := by dsimp only [qdat]
theorem qafter_2 (c : Dev nD) (t : Fin cfg1.N) : (qdat V c).after 2 t = qblk V c 2 t := by dsimp only [qdat]
theorem qafter_3 (c : Dev nD) (t : Fin cfg1.N) :
    (qdat V c).after 3 t = qout (qblk V c 0 t) (qblk V c 1 t) (qblk V c 2 t) := by dsimp only [qdat]

theorem qfound_0 (c : Dev nD) (t : Fin cfg1.N) (d) : (qdat V c).before 0 t d = qblk V c 0 t :=
  qfound0_of V (qdat V c) (qdat_A V c 0) (qafter_0 V c) t d
theorem qfound_1 (c : Dev nD) (t : Fin cfg1.N) (d) : (qdat V c).before 1 t d = qblk V c 1 t :=
  qfound1_of V (qdat V c) (qdat_A V c 1) (qafter_1 V c) t d
theorem qfound_2 (c : Dev nD) (t : Fin cfg1.N) (d) : (qdat V c).before 2 t d = qblk V c 2 t :=
  qfound2_of V (qdat V c) (qdat_A V c 2) (qafter_2 V c) t d

/-! ## The body obligation -/

def qpre (c : Dev nD) (t : Fin cfg1.N) : sProp 𝕄 :=
  iprop((qdat V c).Φ t.castSucc ∗ (qdat V c).owesAt () t.castSucc
    ∗ (∃ d, owns (c : Thread nD τ) (st1_0 t) fullShare ((qdat V c).before 0 t d))
    ∗ (∃ d, owns (c : Thread nD τ) (st1_1 t) fullShare ((qdat V c).before 1 t d))
    ∗ (∃ d, owns (c : Thread nD τ) (st1_2 t) fullShare ((qdat V c).before 2 t d))
    ∗ (∃ d, owns (c : Thread nD τ) (st1_3 t) fullShare ((qdat V c).before 3 t d)))

def qpost (c : Dev nD) (t : Fin cfg1.N) : sProp 𝕄 :=
  iprop((qdat V c).Φ t.succ ∗ (qdat V c).owesAt () t.succ
    ∗ owns (c : Thread nD τ) (st1_0 t) fullShare ((qdat V c).after 0 t)
    ∗ owns (c : Thread nD τ) (st1_1 t) fullShare ((qdat V c).after 1 t)
    ∗ owns (c : Thread nD τ) (st1_2 t) fullShare ((qdat V c).after 2 t)
    ∗ owns (c : Thread nD τ) (st1_3 t) fullShare ((qdat V c).after 3 t))

/-- The body at any point: the input buffers hold their blocks, so the run above applies; what is carried and what is
    owed pass through untouched. -/
theorem quant_point (c : Dev nD) (t : Fin cfg1.N) :
    qpre V c t ⊢ wp frame (wpE (defs₀ (F := F)) Variants.none c none) Set.univ (bodyAt1 t) (fun _ => qpost V c t) := by
  unfold qpre qpost bodyAt1
  simp only [qfound_0, qfound_1, qfound_2]
  rw [show (qdat V c).Φ t.succ = (qdat V c).Φ t.castSucc from rfl,
    show (qdat V c).owesAt () t.succ = (qdat V c).owesAt () t.castSucc from rfl,
    qafter_0, qafter_1, qafter_2, qafter_3]
  iintro ⟨HΦ, Ho, ⟨%d0, H0⟩, ⟨%d1, H1⟩, ⟨%d2, H2⟩, ⟨%d3, H3⟩⟩
  iapply (quant_body_run c Set.univ _ _ _ _ _ _ _ _ _ (qblk V c 0 t) (qblk V c 1 t) (qblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem quant_obligation (c : Dev nD) : BodyObligation (qdat (F := F) V c) (defs₀ (F := F)) Variants.none () Set.univ := fun t => by
  rw [bigSep_W1, bigSep_W1]
  exact quant_point V c t

end Cert.KernelIdeal.Hand

end
-- ==== Proof.FrameKI.Run.lean ====
/-
  The whole program's run. @main is nine items in order: a reshape of the weight to [4096, 512, 32]; the group-maximum
  launch; four stretches of small per-group arithmetic (the shift 0.5·tanh(·) plus a perturbation clamped to ±0.5; the
  exponent floor(log2 max) where the maximum is positive, else 0; the scale 2^exponent); the quantize launch; the reshape
  back. The contents of every buffer between two items are a fold from the launch memory (`B0` … `B9`): a stretch of
  host operations applies them, a launch replaces its windows' arrays by what its write-backs leave. The result: every
  execution terminates and ends with every buffer outside the launches' private storage at `B9` — from which the
  argument arrays are read back unchanged.
-/
import proofs.«136674_j88175678587514_2_alg».proof.Proof.FrameKI.MaxAbs
import proofs.«136674_j88175678587514_2_alg».proof.Proof.FrameKI.Quantize
import proofs.«136674_j88175678587514_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- At launch. -/
abbrev B0 : Dev nD → Valuation τ sig (Elt F) := fun c b => m (c, b)
/-- After the first reshape: the group-maximum launch begins here. -/
abbrev B1 : Dev nD → Valuation τ sig (Elt F) := fun c => StableHlo.after hostOps0 (B0 m c)
abbrev R1 : (c : Dev nD) → (b : Ref sig .tc) → Buf (Elt F) ((c : Thread nD τ).loc b) := fun c b => B1 m c b
/-- After the group-maximum launch: its arrays at what the pipeline leaves, every other buffer as before. -/
def B2 (c : Dev nD) : Valuation τ sig (Elt F) :=
  Pipeline.withArrays spec0 c (B1 m c) fun w => (mdat (R1 m) c).arrAt w cfg0.N
theorem B2_arr (c : Dev nD) (w : Fin cfg0.W) :
    B2 m c (Proc.devRef .tc (Pipeline.arrRef spec0 w)) = (mdat (R1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev R2 : (c : Dev nD) → (b : Ref sig .tc) → Buf (Elt F) ((c : Thread nD τ).loc b) := fun c b => B2 m c b
theorem max_arrays (c : Dev nD) (w : Fin cfg0.W) : (mdat (R1 m) c).arrAt w cfg0.N = R2 m c (Pipeline.arrRef spec0 w) :=
  (B2_arr m c w).symm
theorem max_others (c : Dev nD) : ∀ b, b ∉ Finset.univ.image (Pipeline.arrRef spec0) → R2 m c b = R1 m c b :=
  fun b hb => B2_of_ne m c b fun w e => hb (Finset.mem_image.mpr ⟨w, Finset.mem_univ _, e⟩)
/-- After each of the five stretches of per-group arithmetic. -/
abbrev B3 : Dev nD → Valuation τ sig (Elt F) := fun c => StableHlo.after hostOps1 (B2 m c)
abbrev B4 : Dev nD → Valuation τ sig (Elt F) := fun c => StableHlo.after hostOps1_1 (B3 m c)
abbrev B5 : Dev nD → Valuation τ sig (Elt F) := fun c => StableHlo.after hostOps1_2 (B4 m c)
abbrev B6 : Dev nD → Valuation τ sig (Elt F) := fun c => StableHlo.after hostOps1_3 (B5 m c)
/-- The quantize launch begins here. -/
abbrev B7 : Dev nD → Valuation τ sig (Elt F) := fun c => StableHlo.after hostOps1_4 (B6 m c)
abbrev R7 : (c : Dev nD) → (b : Ref sig .tc) → Buf (Elt F) ((c : Thread nD τ).loc b) := fun c b => B7 m c b
/-- After the quantize launch. -/
def B8 (c : Dev nD) : Valuation τ sig (Elt F) :=
  Pipeline.withArrays spec1 c (B7 m c) fun w => (qdat (R7 m) c).arrAt w cfg1.N
theorem B8_arr (c : Dev nD) (w : Fin cfg1.W) :
    B8 m c (Proc.devRef .tc (Pipeline.arrRef spec1 w)) = (qdat (R7 m) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
abbrev R8 : (c : Dev nD) → (b : Ref sig .tc) → Buf (Elt F) ((c : Thread nD τ).loc b) := fun c b => B8 m c b
theorem quant_arrays (c : Dev nD) (w : Fin cfg1.W) : (qdat (R7 m) c).arrAt w cfg1.N = R8 m c (Pipeline.arrRef spec1 w) :=
  (B8_arr m c w).symm
theorem quant_others (c : Dev nD) : ∀ b, b ∉ Finset.univ.image (Pipeline.arrRef spec1) → R8 m c b = R7 m c b :=
  fun b hb => B8_of_ne m c b fun w e => hb (Finset.mem_image.mpr ⟨w, Finset.mem_univ _, e⟩)
/-- At the end, after the reshape back. -/
abbrev B9 : Dev nD → Valuation τ sig (Elt F) := fun c => StableHlo.after hostOps2 (B8 m c)

/-! ## A buffer no item writes keeps its launch contents -/

theorem B9_untouched (c : Dev nD) (r : Ref sig .tc)
    (h0 : r ∉ hostOps0_W) (h1 : r ∉ hostOps1_W) (h2 : r ∉ hostOps1_1_W) (h3 : r ∉ hostOps1_2_W) (h4 : r ∉ hostOps1_3_W)
    (h5 : r ∉ hostOps1_4_W) (h6 : r ∉ hostOps2_W) (ha : ∀ w, Pipeline.arrRef spec0 w ≠ r) (hb : ∀ w, Pipeline.arrRef spec1 w ≠ r) :
    B9 m c (Proc.devRef .tc r) = m ((c : Thread nD τ).loc r) :=
  (StableHlo.after_of_writes_sub hostOps2 _ hostOps2_writes h6).trans <|
  (B8_of_ne m c r hb).trans <|
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1).trans <|
  (B2_of_ne m c r ha).trans <|
  (StableHlo.after_of_writes_sub hostOps0 _ hostOps0_writes h0).trans rfl

/-! ## The launches' proof data, and what rides along -/

/-- No launch reads a table. -/
abbrev noTables : (p : Fin 2) → (pcfgs (F := F) p).Adm := fun p => (cfgs p).toPCfg_adm
/-- Each launch's proof data at the contents it begins from. -/
def bothDats : (p : Fin 2) → (c : Dev nD) → Dat τ (Elt F) Unit ℕ (UR sig nD τ) ℕ (Pipeline.pin (pcfgs (F := F)) noTables p) c
  | ⟨0, _⟩ => fun c => mdat (R1 m) c
  | ⟨1, _⟩ => fun c => qdat (R7 m) c
abbrev noVariants : Variants := Variants.none
abbrev noPairs : GSem nD τ sig → Finset Unit := fun _ => ∅
abbrev noLevels : GSem nD τ sig → Unit → ℕ := fun _ _ => 0
/-- Beside the buffers, through every item: the generator register at some state, and the core owing nothing. -/
abbrev aside (c : Dev nD) : sProp 𝕄 := iprop((∃ r, prngReg c r) ∗ ∃ W, owes (c : Thread nD τ) (0 : CellTallies nD τ sig Unit) W)
/-- A stretch of host operations as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W aside
theorem mem_outer (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev atEnd (c : Dev nD) : sProp 𝕄 := iprop(StableHlo.held (c : Thread nD τ) (Pipeline.ucRefs τ sig) (B9 m c) ∗ ∃ r, prngReg c r)

/-! ## The two launches as segments -/

set_option backward.isDefEq.respectTransparency.types false in
/-- The group-maximum launch: entered with every outer buffer at `B1`, left with them at `B2`. Its two arrays are split
    out of the outer buffers on entry and put back at their final contents on exit; the generator register goes into what
    is carried and comes back; nothing is owed. -/
def maxRegion : Pipeline.RegionSeg (pcfgs (F := F)) noTables (bothDats m) () defs₀ noVariants noPairs noLevels 0 where
  win := launch0.win.to₀
  block_pos := launch0.block_pos
  stage_whole := launch0.stage_whole
  K := PEmpty
  osem k := k.elim
  ho := Pipeline.OwnSemFacts.none _
  hbody c := (max_obligation (R1 m) c).loose
  hwaits := Pipeline.hwaits_of_owed_zero _ _ _ _ noPairs noLevels 0 fun _ _ => rfl
  pre c := iprop(StableHlo.held (c : Thread nD τ) (Pipeline.ucRefs τ sig) (B1 m c) ∗ aside c)
  post c := iprop(StableHlo.held (c : Thread nD τ) (Pipeline.ucRefs τ sig) (B2 m c) ∗ aside c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) noTables (bothDats m) launch0.win launch0.arr_whole c
      ((bothDats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (noTables (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h1.trans (carried_in (R1 m) c)
  hout c := by
    rw [Pipeline.ownSems0_none]
    have h2 : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (carried_out (R1 m) c).trans h2
  hexit c := by
    have hjoin := Pipeline.unscopedBufs_of_arrays (p := 0) (pcfgs (F := F)) noTables (Ix := Unit) (Name := ℕ) (U := UR sig nD τ) (Lvl := ℕ)
      launch0.win launch0.arr_whole c (bothDats m) ((bothDats m 0 c).share_full fun _ => rfl)
      (R1 m c) (R2 m c) ((bothDats m 0 c).arrAt · cfg0.N) (max_arrays m c) (max_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The quantize launch: entered with every outer buffer at `B7`, left with them at `B8`. -/
def quantRegion : Pipeline.RegionSeg (pcfgs (F := F)) noTables (bothDats m) () defs₀ noVariants noPairs noLevels 1 where
  win := launch1.win.to₀
  block_pos := launch1.block_pos
  stage_whole := launch1.stage_whole
  K := PEmpty
  osem k := k.elim
  ho := Pipeline.OwnSemFacts.none _
  hbody c := (quant_obligation (R7 m) c).loose
  hwaits := Pipeline.hwaits_of_owed_zero _ _ _ _ noPairs noLevels 1 fun _ _ => rfl
  pre c := iprop(StableHlo.held (c : Thread nD τ) (Pipeline.ucRefs τ sig) (B7 m c) ∗ aside c)
  post c := iprop(StableHlo.held (c : Thread nD τ) (Pipeline.ucRefs τ sig) (B8 m c) ∗ aside c)
  X c := iprop(∃ r, prngReg c r)
  Y c := iprop(∃ r, prngReg c r)
  Z c := Pipeline.unscopedRest (Ix := Unit) (Name := ℕ) (U := UR sig nD τ) (Lvl := ℕ) spec1 c (R7 m c)
  hentry c := by
    rw [Pipeline.ownSems0_none]
    have hsplit := Pipeline.arrays_of_unscopedBufs (p := 1) (pcfgs (F := F)) noTables (bothDats m) launch1.win launch1.arr_whole c
      ((bothDats m 1 c).share_full fun _ => rfl) (R7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (bothDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (bothDats m) ((bothDats m 1 c).share_full fun _ => rfl)
      (R7 m c) (R8 m c) ((bothDats m 1 c).arrAt · cfg1.N) (quant_arrays m c) (quant_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its nine items, and the launch -/

abbrev items : List (Pipeline.Seg (pcfgs (F := F)) noTables (bothDats m) () defs₀ noVariants noPairs noLevels) :=
  [ .host (stretch hostOps0 hostOps0_sub hostOps0_fresh (B0 m)),
    .region (maxRegion m),
    .host (stretch hostOps1 hostOps1_sub hostOps1_fresh (B2 m)),
    .host (stretch hostOps1_1 hostOps1_1_sub hostOps1_1_fresh (B3 m)),
    .host (stretch hostOps1_2 hostOps1_2_sub hostOps1_2_fresh (B4 m)),
    .host (stretch hostOps1_3 hostOps1_3_sub hostOps1_3_fresh (B5 m)),
    .host (stretch hostOps1_4 hostOps1_4_sub hostOps1_4_fresh (B6 m)),
    .region (quantRegion m),
    .host (stretch hostOps2 hostOps2_sub hostOps2_fresh (B8 m)) ]

theorem main_is_items (c : Dev nD) : main (F := F) c = Pipeline.Seg.run (items m) := (main_chain c).trans (by chain_rfl)

set_option backward.isDefEq.respectTransparency.types false in
/-- From any memory with zero counters, every weakly fair execution of @main terminates, nothing faulting, and every
    final state has every outer buffer at `B9`. -/
theorem run_to_end : θ_run defs (onTc (τ := τ) (main (F := F))) ⟨m, fun _ => 0, ρ⟩ (fun r => ∀ c : Dev nD,
      ∀ b ∈ Pipeline.ucRefs τ sig, r.2.mem (((c : Thread nD τ)).1, b) = B9 m c b) :=
  Pipeline.θ_run_regions_kit (pcfgs (F := F)) noTables (bothDats m) () cellOf_inj emb₁ defs₀ noVariants noPairs noLevels m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ aside c)) (Tₙ := atEnd m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (B9 m c) ∗ aside c) : sProp 𝕄)
          ⊢ iprop(atEnd m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach noPairs noLevels fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

/-- The frame: every execution terminates and the three argument arrays end as launched — no item writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_outer main_arg0 (by decide))).trans (B9_untouched m c main_arg0 (by decide) (by decide) (by decide) (by decide) (by decide) (by decide) (by decide) (by decide) (by decide)),
     (h c _ (mem_outer main_arg1 (by decide))).trans (B9_untouched m c main_arg1 (by decide) (by decide) (by decide) (by decide) (by decide) (by decide) (by decide) (by decide) (by decide)),
     (h c _ (mem_outer main_arg2 (by decide))).trans (B9_untouched m c main_arg2 (by decide) (by decide) (by decide) (by decide) (by decide) (by decide) (by decide) (by decide) (by decide))⟩)
    (run_to_end m ρ)

end Cert.KernelIdeal.Hand

end
-- ==== Proof.ScalarQuant.lean ====
/-
  The scalar quantisation function, on extended reals.

  For a weight `w`, a group scale `s` and a group shift `e`:
    quant w s e = sign w · s · (roundeven (clip (clip (|w| / s) 0 1 + e) 0 1 · 8) / 8),
  where `|w| = max w (-w)`, `clip x 0 1 = min 1 (max 0 x)`, the quotient is the ideal
  instance's division, and the rounding is to nearest with ties to even. The float literals
  0, 1 and 8 stay as the words that denote them; both programs carry the same words, so
  they are never evaluated.
-/
import Idealize.ShloMosaic.PureOps.Ideal
import Idealize.ShloMosaic.Lib.ValueIdx

noncomputable section

namespace Cert.GroupQuant

open Idealize.ShloMosaic Idealize.ShloMosaic.ValueIdx

/-- `clip x 0 1`, with the literals `0` and `1` as their f32 words. -/
def clip01 (x : EReal) : EReal :=
  min (Ideal.ofBits .f32 0x3F800000#32) (max (Ideal.ofBits .f32 0x00000000#32) x)

/-- The quantised mantissa: `roundeven (clip (clip (|w| / s) 0 1 + e) 0 1 · 8) / 8`. -/
def mantissa (w s e : EReal) : EReal :=
  Ideal.div
    (Ideal.liftRound Ideal.roundHalfEven
      (clip01 (clip01 (Ideal.div (max w (-w)) s) + e) * Ideal.ofBits .f32 0x41000000#32))
    (Ideal.ofBits .f32 0x41000000#32)

/-- The quantised weight: `sign w · s · mantissa`. -/
def quant (w s e : EReal) : EReal :=
  Ideal.sign w * s * mantissa w s e

end Cert.GroupQuant

end
-- ==== Proof.QuantKernel.lean ====
/-
  The kernel's quantise payload, read at an index: element `(p, g, k)` of the `[16, 512, 32]` tile it stores is the
  scalar function `quant` of the weight at `(p, g, k)` and of group `g`'s scale and shift. The two per-group vectors
  reach the tile through a view `[512] → [1, 512, 1]` and a spread `[1, 512, 1] → [16, 512, 32]`; every other
  operation is elementwise.
-/
import proofs.«136674_j88175678587514_2_alg».proof.Proof.Gen.KernelIdeal.Skeleton
import proofs.«136674_j88175678587514_2_alg».proof.Proof.ScalarQuant
import Idealize.ShloMosaic.Lib.ValueLayout
import Idealize.ShloMosaic.PureOps.Ideal.Laws

noncomputable section

namespace Cert.GroupQuant

open Idealize.ShloMosaic Idealize.ShloMosaic.ValueIdx

/-- A per-group vector `[512]` viewed `[1, 512, 1]` reads, at `(u, g, v)`, the vector at `g`. -/
theorem column_apply {α : Type} (x : (⟨1, ![512]⟩ : Shape).Idx → α)
    (h : (⟨1, ![512]⟩ : Shape).ShapeCasts ⟨3, ![1, 512, 1]⟩) (u : Fin 1) (g : Fin 512) (v : Fin 1) :
    shapeCast ⟨3, ![1, 512, 1]⟩ x h (ix3 u g v) = x (ix1 g) :=
  shapeCast_apply x h _ _ (by
    have hu : u.val = 0 := by omega
    have hv : v.val = 0 := by omega
    rw [Shape.rowMajor_val_three, Shape.rowMajor_val_one]
    show g.val = (u.val * 512 + g.val) * 1 + v.val
    omega)

/-- A `[1, 512, 1]` column spread over `[R, 512, K]` reads, at `(p, g, k)`, the column at `(0, g, 0)`. -/
theorem spread_apply {α : Type} {R K : ℕ} (x : (⟨3, ![1, 512, 1]⟩ : Shape).Idx → α)
    (h : (⟨3, ![1, 512, 1]⟩ : Shape).Broadcasts ⟨3, ![R, 512, K]⟩) (p : Fin R) (g : Fin 512) (k : Fin K) :
    broadcastTo ⟨3, ![R, 512, K]⟩ x h (ix3 p g k) = x (ix3 (0 : Fin 1) g (0 : Fin 1)) :=
  broadcastTo_apply x h _ _ fun a => by
    match a with
    | ⟨0, _⟩ => show 0 = if (1 : Nat) = 1 then 0 else p.val; rw [if_pos rfl]
    | ⟨1, _⟩ => show g.val = if (512 : Nat) = 1 then 0 else g.val; rw [if_neg (by decide)]
    | ⟨2, _⟩ => show 0 = if (1 : Nat) = 1 then 0 else k.val; rw [if_pos rfl]

/-- The absolute value and the rounding at an index are those of the element (by definition). -/
theorem absf_apply {s : Shape} {φ : FTy} (a : FVec Ideal s φ) (i : s.Idx) : absf a i = max (a i) (-(a i)) := rfl
theorem roundeven_apply {s : Shape} {φ : FTy} (a : FVec Ideal s φ) (i : s.Idx) :
    roundeven a i = Ideal.liftRound Ideal.roundHalfEven (a i) := rfl

/-- A per-group vector, viewed `[1, 512, 1]` and spread over the tile `[16, 512, 32]`, reads at `(p, g, k)` the vector
    at `g`. -/
theorem group_spread_apply {α : Type} (v : Cert.KernelIdeal.S512.Idx → α) (p : Fin 16) (g : Fin 512) (k : Fin 32) :
    broadcastTo Cert.KernelIdeal.S16x512x32
        (shapeCast Cert.KernelIdeal.S1x512x1 v Cert.KernelIdeal.Gen.shapeCasts_S512_S1x512x1)
        Cert.KernelIdeal.Gen.broadcasts_S1x512x1_S16x512x32 (ix3 p g k) = v (ix1 g) :=
  (spread_apply _ _ p g k).trans (column_apply v _ 0 g 0)

/-- THE QUANTISE PAYLOAD AT AN INDEX: element `(p, g, k)` of the tile the kernel stores is `quant` of the weight there
    with group `g`'s scale and shift. The kernel's spelling of the sign, `1` carrying the weight's sign bit where
    `|w| > 0` and else `w` itself, is `Ideal.sign w`. -/
theorem kernel_quant_apply (x0 : Vec Ideal Cert.KernelIdeal.S16x512x32 .f32) (s e : Vec Ideal Cert.KernelIdeal.S512 .f32)
    (p : Fin 16) (g : Fin 512) (k : Fin 32) :
    Cert.KernelIdeal.Gen.k1_pay1 (F := Ideal) x0 s e (ix3 p g k) = quant (x0 (ix3 p g k)) (s (ix1 g)) (e (ix1 g)) := by
  unfold Cert.KernelIdeal.Gen.k1_pay1
  simp only [shapeCast_self]
  simp only [mulf_apply, divf_apply, addf_apply, maximumf_apply, minimumf_apply, broadcast_apply, roundeven_apply,
    group_spread_apply]
  unfold quant mantissa clip01
  rw [← Ideal.jnp_sign_eq_sign_f32 (x0 (ix3 p g k))]
  rfl

end Cert.GroupQuant

end
-- ==== Proof.FrameKI.QuantValue.lean ====
/-
  The quantize launch's result as ONE function of its three input arrays: entry (r, g, k) of the result is the scalar
  quantizer of the weight's entry (r, g, k) with group g's scale and shift. Point t writes back rows 16t … 16t+15 of that
  function (its weight block sits at the same rows; the two per-group vectors are one block each), and the 256 blocks
  tile the array, so the array ends holding the function everywhere.
-/
import proofs.«136674_j88175678587514_2_alg».proof.Proof.FrameKI.Quantize
import proofs.«136674_j88175678587514_2_alg».proof.Proof.QuantKernel
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GroupQuant

variable (V : (c : Dev nD) → (b : Ref sig .tc) → Buf (Elt Ideal) ((c : Thread nD τ).loc b))

theorem zeroOff1 : (![0] : Fin 1 → Nat) = fun _ => 0 := funext fun a => by fin_cases a <;> rfl
theorem zeroOff3 : (![0, 0, 0] : Fin 3 → Nat) = fun _ => 0 := funext fun a => by fin_cases a <;> rfl

/-- The quantized weight, entry by entry, from the grouped weight and the two per-group vectors. -/
def quantAll (w3 : S4096x512x32.Idx → Elt Ideal .f32) (s e : S512.Idx → Elt Ideal .f32) : S4096x512x32.Idx → Elt Ideal .f32 :=
  fun i => quant (w3 i) (s (ix1 (n := 512) (i 1))) (e (ix1 (n := 512) (i 1)))

/-- The printed index maps over the grid: the weight and result blocks of point `t` are row-block `t`, full in the other
    two axes; each per-group vector is its one block. -/
theorem quant_index : ∀ t : Fin cfg1.N,
    win1_0.index t (0 : Fin 3) = t.val ∧ win1_0.index t (1 : Fin 3) = 0 ∧ win1_0.index t (2 : Fin 3) = 0
    ∧ win1_3.index t (0 : Fin 3) = t.val ∧ win1_3.index t (1 : Fin 3) = 0 ∧ win1_3.index t (2 : Fin 3) = 0
    ∧ win1_1.index t (0 : Fin 1) = 0 ∧ win1_2.index t (0 : Fin 1) = 0 :=
  (by decide +kernel : ∀ t : Fin grid1.N, _)

/-- What point `t` writes back is block `t` of `quantAll` of the arrays the launch began from. -/
theorem quant_flushed (c : Dev nD) (t : Fin cfg1.N) :
    (qdat V c).flushed 3 t = ((cfg1.win 3).blk t).view.read (Elt Ideal) (quantAll (V c main_v0) (V c main_v17) (V c main_v6)) := by
  show (cfg1.win 3).cut (grid1.coords t) ((qdat V c).after 3 t) = _
  rw [qafter_3]
  unfold qout
  rw [View.canon_unit_zero zeroOff3]
  simp only [View.ld_unit_zero (S := S16x512x32) zeroOff3, View.ld_unit_zero (S := S512) zeroOff1]
  obtain ⟨a0, a1, a2, b0, b1, b2, c0, d0⟩ := quant_index t
  funext j
  obtain ⟨p, g, k, rfl⟩ : ∃ (p : Fin 16) (g : Fin 512) (k : Fin 32), j = ix3 p g k := ⟨j 0, j 1, j 2, eq_ix3 j⟩
  show k1_pay1 (F := Ideal) (qblk V c 0 t) (qblk V c 1 t) (qblk V c 2 t) (ix3 p g k)
    = quantAll (V c main_v0) (V c main_v17) (V c main_v6) (((cfg1.win 3).blk t).view.emb (ix3 p g k))
  rw [kernel_quant_apply]
  unfold quantAll
  have hp : p.val < 16 := p.isLt
  have hg : g.val < 512 := g.isLt
  have hk : k.val < 32 := k.isLt
  have e0 : qblk V c 0 t (ix3 p g k) = V c main_v0 (((cfg1.win 3).blk t).view.emb (ix3 p g k)) := by
    show V c main_v0 (((cfg1.win 0).blk t).view.emb (ix3 p g k)) = V c main_v0 (((cfg1.win 3).blk t).view.emb (ix3 p g k))
    refine congrArg (V c main_v0) ?_
    funext a; apply Fin.ext
    match a with
    | ⟨0, _⟩ => show win1_0.index t (0 : Fin 3) * 16 + 1 * p.val = win1_3.index t (0 : Fin 3) * 16 + 1 * p.val; omega
    | ⟨1, _⟩ => show win1_0.index t (1 : Fin 3) * 512 + 1 * g.val = win1_3.index t (1 : Fin 3) * 512 + 1 * g.val; omega
    | ⟨2, _⟩ => show win1_0.index t (2 : Fin 3) * 32 + 1 * k.val = win1_3.index t (2 : Fin 3) * 32 + 1 * k.val; omega
  have e1 : qblk V c 1 t (ix1 g) = V c main_v17 (ix1 (n := 512) ((((cfg1.win 3).blk t).view.emb (ix3 p g k)) 1)) := by
    show V c main_v17 (((cfg1.win 1).blk t).view.emb (ix1 g)) = _
    refine congrArg (V c main_v17) ?_
    funext a; apply Fin.ext
    match a with
    | ⟨0, _⟩ => show win1_1.index t (0 : Fin 1) * 512 + 1 * g.val = win1_3.index t (1 : Fin 3) * 512 + 1 * g.val; omega
  have e2 : qblk V c 2 t (ix1 g) = V c main_v6 (ix1 (n := 512) ((((cfg1.win 3).blk t).view.emb (ix3 p g k)) 1)) := by
    show V c main_v6 (((cfg1.win 2).blk t).view.emb (ix1 g)) = _
    refine congrArg (V c main_v6) ?_
    funext a; apply Fin.ext
    match a with
    | ⟨0, _⟩ => show win1_2.index t (0 : Fin 1) * 512 + 1 * g.val = win1_3.index t (1 : Fin 3) * 512 + 1 * g.val; omega
  rw [e0, e1, e2]

/-- An index lies in point `t`'s block iff each coordinate lies in the block's range on its axis. -/
theorem quant_mem_blk (t : Fin cfg1.N) (i : S4096x512x32.Idx) :
    i ∈ ((cfg1.win 3).blk t).view.set ↔ ∀ a : Fin 3, win1_3.index t a * S16x512x32.size a ≤ (i a).val ∧ (i a).val < win1_3.index t a * S16x512x32.size a + S16x512x32.size a := by
  show i ∈ ((View.whole main_v18).slice (win1_3.rect t)).set ↔ _
  rw [View.set_slice_whole, Rect.mem_set_unit]
  exact Iff.rfl

/-- Every entry of the result is in the block of the point that takes its row: row r belongs to point r / 16. -/
theorem quant_cover (i : S4096x512x32.Idx) :
    ∃ t : Fin cfg1.N, (cfg1.win 3).flush t = true ∧ i ∈ ((cfg1.win 3).blk t).view.set := by
  have h0 : (i 0).val < 4096 := (i 0).isLt
  have h1 : (i 1).val < 512 := (i 1).isLt
  have h2 : (i 2).val < 32 := (i 2).isLt
  have hN : cfg1.N = 256 := N_1
  let t : Fin cfg1.N := ⟨(i 0).val / 16, by rw [hN]; omega⟩
  obtain ⟨-, -, -, b0, b1, b2, -, -⟩ := quant_index t
  have ht : t.val = (i 0).val / 16 := rfl
  refine ⟨t, flush1_3 t, ?_⟩
  rw [quant_mem_blk]
  intro a
  match a with
  | ⟨0, _⟩ => show win1_3.index t (0 : Fin 3) * 16 ≤ (i 0).val ∧ (i 0).val < win1_3.index t (0 : Fin 3) * 16 + 16; omega
  | ⟨1, _⟩ => show win1_3.index t (1 : Fin 3) * 512 ≤ (i 1).val ∧ (i 1).val < win1_3.index t (1 : Fin 3) * 512 + 512; omega
  | ⟨2, _⟩ => show win1_3.index t (2 : Fin 3) * 32 ≤ (i 2).val ∧ (i 2).val < win1_3.index t (2 : Fin 3) * 32 + 32; omega

/-- The result array after the launch. -/
theorem quant_final (c : Dev nD) :
    (qdat V c).arrAt 3 cfg1.N = quantAll (V c main_v0) (V c main_v17) (V c main_v6) :=
  (qdat V c).arrAt_eq_of_cover 3 _ (fun t _ => quant_flushed V c t) quant_cover

end Cert.KernelIdeal.Hand

end
-- ==== Proof.FrameKI.MaxValue.lean ====
/-
  What each case of the group-maximum body leaves, as a formula. With `M(x, a)` the body's arithmetic — the elementwise
  maximum of the vector `a` with the maxima, group by group, of |x| over the tile's 32 rows and 32 lanes (the payload
  `k0_pay2 x a`) — and `Z` the zero vector (`k0_pay1`): the first point leaves the scratch at M(tile, Z); a later point
  leaves it at M(tile, what the point before left); and the last point stores into the result what it has just put in
  the scratch.
-/
import proofs.«136674_j88175678587514_2_alg».proof.Proof.FrameKI.MaxAbs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros1 : (![0] : Fin 1 → Nat) = fun _ => 0 := funext fun a => by fin_cases a <;> rfl
theorem zeros3 : (![0, 0, 0] : Fin 3 → Nat) = fun _ => 0 := funext fun a => by fin_cases a <;> rfl

theorem accFirst_eq (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : isFirst i) (hc1 : ¬isLast i) (x0 : Vec F S32x512x32 .f32) :
    accFirst c i arg1 harg1 arg2 harg2 arg3 harg3 hc0 hc1 x0 = k0_pay2 x0 (k0_pay1 (F := F)) := by
  unfold accFirst
  rw [View.read_writes_eq_canon _ _ _ (first_cover c i arg1 harg1 arg2 harg2 arg3 harg3 hc0 hc1 x0)]
  unfold runFirst
  dsimp only
  sl_unfold_words
  rw [View.canon_cons_unit_zero zeros1]
  simp only [View.readAt_eq_ld, harg1.read_unread, View.ld_unit_zero (S := S32x512x32) zeros3, View.readCov_unit_zero (S := S512) _ zeros1]

theorem accMid_eq (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : ¬isLast i) (x0 : Vec F S32x512x32 .f32) (xs : Vec F S512 .f32) :
    accMid c i arg1 harg1 arg2 harg2 arg3 harg3 hc0 hc1 x0 xs = k0_pay2 x0 xs := by
  unfold accMid
  rw [View.read_writes_eq_canon _ _ _ (mid_cover c i arg1 harg1 arg2 harg2 arg3 harg3 hc0 hc1 x0 xs)]
  unfold runMid
  dsimp only
  sl_unfold_words
  rw [View.canon_unit_zero zeros1]
  simp only [View.readAt_eq_ld, harg1.read_unread, harg3.read_unread, View.ld_unit_zero (S := S32x512x32) zeros3, View.ld_unit_zero (S := S512) zeros1]

theorem accLast_eq (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : isLast i) (x0 : Vec F S32x512x32 .f32) (xs : Vec F S512 .f32) :
    accLast c i arg1 harg1 arg2 harg2 arg3 harg3 hc0 hc1 x0 xs = k0_pay2 x0 xs := by
  unfold accLast
  rw [View.read_writes_eq_canon _ _ _ (last_cover c i arg1 harg1 arg2 harg2 arg3 harg3 hc0 hc1 x0 xs)]
  unfold runLast
  dsimp only
  sl_unfold_words
  rw [View.canon_unit_zero zeros1]
  simp only [View.readAt_eq_ld, harg1.read_unread, harg3.read_unread, View.ld_unit_zero (S := S32x512x32) zeros3, View.ld_unit_zero (S := S512) zeros1]

theorem resLast_eq (c : Dev nD) (i : grid0.Coords) (arg1 : Memref sig .tc .vmem S32x512x32 .f32) (harg1 : arg1.IsWhole)
    (arg2 : Memref sig .tc .vmem S512 .f32) (harg2 : arg2.IsWhole) (arg3 : Memref sig .tc .vmem S512 .f32) (harg3 : arg3.IsWhole)
    (hc0 : ¬isFirst i) (hc1 : isLast i) (x0 : Vec F S32x512x32 .f32) (xs : Vec F S512 .f32) :
    resLast c i arg1 harg1 arg2 harg2 arg3 harg3 hc0 hc1 x0 xs = k0_pay2 x0 xs := by
  unfold resLast
  rw [View.read_writes_eq_canon _ _ _ (result_cover c i arg1 harg1 arg2 harg2 arg3 harg3 hc0 hc1 x0 xs)]
  unfold runLast
  dsimp only
  sl_unfold_words
  rw [View.canon_unit_zero zeros1, View.readCov_unit_zero (S := S512) _ zeros1]
  simp only [View.readAt_eq_ld, harg1.read_unread, harg3.read_unread, View.ld_unit_zero (S := S32x512x32) zeros3, View.ld_unit_zero (S := S512) zeros1]

variable (V : (c : Dev nD) → (b : Ref sig .tc) → Buf (Elt F) ((c : Thread nD τ).loc b))

/-- The scratch after point `n`, as a recursion on the point over the body's arithmetic alone. -/
def runningMax (c : Dev nD) : (n : ℕ) → n < cfg0.N → Vec F S512 .f32
  | 0, hn => k0_pay2 (mblk V c 0 ⟨0, hn⟩) (k0_pay1 (F := F))
  | n + 1, hn => k0_pay2 (mblk V c 0 ⟨n + 1, hn⟩) (runningMax c n (Nat.lt_of_succ_lt hn))

/-- It is what the scratch holds after each point. -/
theorem heldAt_scratch (c : Dev nD) : ∀ (n : ℕ) (hn : n < cfg0.N), (heldAt V c n hn).2 = runningMax V c n hn
  | 0, hn => by
    rw [heldAt_first V c ⟨0, hn⟩ (Nat.zero_mod _) (by show ¬(0 : ℕ) % 128 = 127; omega)]
    dsimp only
    rw [accFirst_eq]
    rfl
  | n + 1, hn => by
    have hN : n + 1 < 128 := lt_of_lt_of_eq hn (show cfg0.N = 128 from N_0)
    have h0 : ¬(n + 1) % 128 = 0 := by omega
    have ih := heldAt_scratch c n (Nat.lt_of_succ_lt hn)
    by_cases h1 : (n + 1) % 128 = 127
    · rw [heldAt_last V c ⟨n + 1, hn⟩ h0 h1]
      dsimp only
      rw [accLast_eq]
      exact congrArg (k0_pay2 _) ih
    · rw [heldAt_mid V c ⟨n + 1, hn⟩ h0 h1]
      dsimp only
      rw [accMid_eq]
      exact congrArg (k0_pay2 _) ih

/-- At the last point the result buffer is left at the scratch's final contents. -/
theorem heldAt_result (c : Dev nD) (hn : 127 < cfg0.N) : (heldAt V c 127 hn).1 = runningMax V c 127 hn := by
  rw [heldAt_last V c ⟨127, hn⟩ (by show ¬(127 : ℕ) % 128 = 0; omega) (by show (127 : ℕ) % 128 = 127; omega)]
  dsimp only
  rw [resLast_eq]
  exact congrArg (k0_pay2 _) (heldAt_scratch V c 126 _)

end Cert.KernelIdeal.Hand

end
-- ==== Proof.SupFold.lean ====
/-
  Maxima as suprema. On the extended reals a fold of `max` from `-∞` over a finite set of indices is the supremum of
  the values there, so a maximum-reduction — a kernel's over one axis, the host's over several — reads at a result index
  as the `Finset.sup` over the source indices that reduce to it; and a supremum over such a fibre is the supremum over
  any parametrisation of it.
-/
import Idealize.ShloMosaic.PureOps.Ideal.Laws
import Idealize.ShloMosaic.Lib.ValueIdx

noncomputable section

namespace Cert.GroupQuant

open Idealize.ShloMosaic Idealize.ShloMosaic.ValueIdx

/-- The f32 word of `-∞` denotes the bottom of the extended reals. -/
theorem ofBits_neg_inf : Ideal.ofBits .f32 0xFF800000#32 = ⊥ := by simp [Ideal.ofBits, Ideal.ieee]

/-- A fold of the ideal `maximumf` from `b` over a finite set is `max b` of the supremum over the set. -/
theorem fold_maximumf_eq_sup {ι : Type} (S : Finset ι) (b : EReal) (f : ι → EReal) :
    S.fold (FloatOps.maximumf (F := Ideal) (φ := .f32)) b f = max b (S.sup f) := by
  induction S using Finset.cons_induction with
  | empty => rw [Finset.fold_empty, Finset.sup_empty, max_bot_right]
  | cons a S ha ih =>
    rw [Finset.fold_cons, ih, Finset.sup_cons]
    show max (f a) (max b (S.sup f)) = max b (max (f a) (S.sup f))
    exact max_left_comm _ _ _

/-- The supremum over a fibre `{i | d i = j}` is the supremum over any parametrisation `e` of the fibre. -/
theorem sup_fibre {ι κ τ : Type} [Fintype ι] [Fintype κ] (d : ι → τ) (j : τ) [DecidablePred fun i => d i = j]
    (e : κ → ι) (he : ∀ c, d (e c) = j) (hs : ∀ i, d i = j → ∃ c, e c = i) (f : ι → EReal) :
    (Finset.univ.filter fun i => d i = j).sup f = Finset.univ.sup fun c => f (e c) := by
  apply le_antisymm
  · refine Finset.sup_le fun i hi => ?_
    obtain ⟨c, rfl⟩ := hs i (Finset.mem_filter.1 hi).2
    exact Finset.le_sup (f := fun c => f (e c)) (Finset.mem_univ c)
  · refine Finset.sup_le fun c _ => ?_
    exact Finset.le_sup (f := f) (Finset.mem_filter.2 ⟨Finset.mem_univ _, he c⟩)

/-- A kernel's f32 maximum-reduction from `-∞`, at a result index: the supremum of the source over the indices that
    reduce to it. The evidence that the accumulator is the kind's neutral word is typed as a program prints it. -/
theorem multiReduction_max_eq_sup {s t : Shape} {axes : List (Fin s.rank)} (src : FVec Ideal s .f32)
    (h : s.Reduces axes t) (hφ : FKind.Formats .f32) (hacc : (0xFF800000#32 : BitVec 32) = FKind.maximumf.neutral .f32 hφ)
    (j : t.Idx) :
    multiReduction .maximumf axes t src 0xFF800000#32 h hφ hacc j = (Finset.univ.filter fun i => h.drop i = j).sup src := by
  refine (multiReduction_maximumf_eq_fold src _ h hφ hacc j).trans ?_
  refine (fold_maximumf_eq_sup _ _ _).trans ?_
  show max (Ideal.ofBits .f32 0xFF800000#32) _ = _
  rw [ofBits_neg_inf, max_bot_left]

/-- The host's maximum-reduction from a rank-zero `-∞`, at a result index: the same supremum. -/
theorem hostReduce_max_eq_sup {s t u : Shape} {axes : List (Fin s.rank)} (x : FVec Ideal s .f32)
    (h : s.ReducesTo axes t) (hu : 0 < u.numel) (j : t.Idx) :
    Host.reduce (FloatOps.maximumf (F := Ideal) (φ := .f32)) x (constant (F := Ideal) u .f32 0xFF800000#32) h hu j
      = (Finset.univ.filter fun i => h.drop i = j).sup x := by
  refine (Host.reduce_eq_fold _ x _ h hu j).trans ?_
  refine (fold_maximumf_eq_sup _ _ _).trans ?_
  show max (Ideal.ofBits .f32 0xFF800000#32) _ = _
  rw [ofBits_neg_inf, max_bot_left]

end Cert.GroupQuant

end
-- ==== Proof.MaxKernel.lean ====
/-
  The kernel's group-maximum payloads, read at a group. The first payload is the zero the running maximum starts from.
  The second takes a tile of 32 rows: the absolute values, their maximum over the 32 lanes of each group (from `-∞`), the
  maximum of that over the 32 rows (from `-∞`), and the maximum of the result with the running value — at group `g`,
  the running value against the supremum of `|w|` over the tile's (row, lane) pairs of that group.
-/
import proofs.«136674_j88175678587514_2_alg».proof.Proof.Gen.KernelIdeal.Skeleton
import proofs.«136674_j88175678587514_2_alg».proof.Proof.SupFold
import Idealize.ShloMosaic.Lib.Pipeline.Value

noncomputable section

namespace Cert.GroupQuant

open Idealize.ShloMosaic Idealize.ShloMosaic.ValueIdx
open Cert.KernelIdeal Cert.KernelIdeal.Gen

/-- The running maximum starts at zero in every group. -/
theorem tile_zero (g : Fin 512) : k0_pay1 (F := Ideal) (ix1 g) = 0 := by
  unfold k0_pay1
  simp only [shapeCast_self]
  exact Ideal.ofBits_zero_f32

/-- Dropping the lane of `(a, b, c)` leaves `(a, b)`. -/
theorem drop_lane (a : Fin 32) (b : Fin 512) (c : Fin 32) :
    reduces_S32x512x32_S32x512.drop (ix3 a b c) = ix2 a b := by
  funext d
  match d with
  | ⟨0, _⟩ => rfl
  | ⟨1, _⟩ => rfl

/-- Dropping the row of `(a, b)` leaves `b`. -/
theorem drop_row (a : Fin 32) (b : Fin 512) : reduces_S32x512_S512.drop (ix2 a b) = ix1 b := by
  funext d
  match d with
  | ⟨0, _⟩ => rfl

/-- The maximum over the lanes, at `(r, g)`: the supremum over the 32 lanes of group `g` in row `r`. -/
theorem lane_max (src : FVec Ideal S32x512x32 .f32) (hφ : FKind.Formats .f32)
    (hacc : (0xFF800000#32 : BitVec 32) = FKind.maximumf.neutral .f32 hφ) (r : Fin 32) (g : Fin 512) :
    multiReduction .maximumf [2] S32x512 src 0xFF800000#32 reduces_S32x512x32_S32x512 hφ hacc (ix2 r g)
      = Finset.univ.sup fun k : Fin 32 => src (ix3 r g k) :=
  (multiReduction_max_eq_sup src _ hφ hacc _).trans
    (sup_fibre _ _ (fun k : Fin 32 => ix3 r g k) (fun k => drop_lane r g k) (fun i hi => by
      obtain ⟨a, b, c, rfl⟩ : ∃ (a : Fin 32) (b : Fin 512) (c : Fin 32), i = ix3 a b c := ⟨i 0, i 1, i 2, eq_ix3 i⟩
      rw [drop_lane] at hi
      have h0 : a = r := congrFun hi 0
      have h1 : b = g := congrFun hi 1
      subst h0 h1
      exact ⟨c, rfl⟩) src)

/-- The maximum over the rows, at `g`: the supremum over the 32 rows of the matrix's column `g`. -/
theorem row_max (src : FVec Ideal S32x512 .f32) (hφ : FKind.Formats .f32)
    (hacc : (0xFF800000#32 : BitVec 32) = FKind.maximumf.neutral .f32 hφ) (g : Fin 512) :
    multiReduction .maximumf [0] S512 src 0xFF800000#32 reduces_S32x512_S512 hφ hacc (ix1 g)
      = Finset.univ.sup fun r : Fin 32 => src (ix2 r g) :=
  (multiReduction_max_eq_sup src _ hφ hacc _).trans
    (sup_fibre _ _ (fun r : Fin 32 => ix2 r g) (fun r => drop_row r g) (fun i hi => by
      obtain ⟨a, b, rfl⟩ : ∃ (a : Fin 32) (b : Fin 512), i = ix2 a b := ⟨i 0, i 1, eq_ix2 i⟩
      rw [drop_row] at hi
      have h1 : b = g := congrFun hi 0
      subst h1
      exact ⟨a, rfl⟩) src)

/-- The two reductions together, at `g`: the supremum over the tile's (row, lane) pairs of group `g`. -/
theorem tile_sup (src : FVec Ideal S32x512x32 .f32) (hφ hφ' : FKind.Formats .f32)
    (hacc : (0xFF800000#32 : BitVec 32) = FKind.maximumf.neutral .f32 hφ)
    (hacc' : (0xFF800000#32 : BitVec 32) = FKind.maximumf.neutral .f32 hφ') (g : Fin 512) :
    multiReduction .maximumf [0] S512
        (multiReduction .maximumf [2] S32x512 src 0xFF800000#32 reduces_S32x512x32_S32x512 hφ hacc)
        0xFF800000#32 reduces_S32x512_S512 hφ' hacc' (ix1 g)
      = Finset.univ.sup fun rk : Fin 32 × Fin 32 => src (ix3 rk.1 g rk.2) := by
  refine (row_max _ hφ' hacc' g).trans ?_
  rw [← Finset.univ_product_univ, Finset.sup_product_left]
  exact Finset.sup_congr rfl fun r _ => lane_max src hφ hacc r g

/-- THE TILE PAYLOAD AT A GROUP: the running value against the supremum of `|w|` over the tile's rows and lanes of the
    group. -/
theorem tile_max_apply (v3 : Vec Ideal S32x512x32 .f32) (v8 : Vec Ideal S512 .f32) (g : Fin 512) :
    k0_pay2 (F := Ideal) v3 v8 (ix1 g)
      = max (v8 (ix1 g))
          (Finset.univ.sup fun rk : Fin 32 × Fin 32 => max (v3 (ix3 rk.1 g rk.2)) (-(v3 (ix3 rk.1 g rk.2)))) := by
  unfold k0_pay2
  simp only [shapeCast_self]
  exact congrArg (max (v8 (ix1 g))) (tile_sup _ _ _ _ _ g)

end Cert.GroupQuant

end
-- ==== Proof.GroupMax.lean ====
/-
  A running maximum over tiles is the maximum over everything. `runMax T n` starts from `0`, takes the maximum with
  tile `0`'s value and then with each later tile's in turn; it is `max 0` of the supremum of the first `n + 1` tile
  values. For a nonnegative array `f` of 4096 rows cut into 128 tiles of 32 consecutive rows, `max 0` of the supremum
  over the tiles of each tile's supremum over its (row, lane) pairs is the supremum of `f` over all (row, lane) pairs.
-/
import Idealize.ShloMosaic.PureOps.Ideal

noncomputable section

namespace Cert.GroupQuant

/-- The running maximum after tiles `0 … n`, started from `0`. -/
def runMax (T : ℕ → EReal) : ℕ → EReal
  | 0 => max 0 (T 0)
  | n + 1 => max (runMax T n) (T (n + 1))

/-- The running maximum is `max 0` of the supremum of the tile values so far. -/
theorem runMax_eq (T : ℕ → EReal) (n : ℕ) : runMax T n = max 0 ((Finset.range (n + 1)).sup T) := by
  induction n with
  | zero => rw [runMax, Finset.range_one, Finset.sup_singleton]
  | succ n ih =>
    rw [runMax, ih, Finset.range_add_one (n := n + 1), Finset.sup_insert]
    show max (max 0 ((Finset.range (n + 1)).sup T)) (T (n + 1)) = max 0 (max (T (n + 1)) ((Finset.range (n + 1)).sup T))
    rw [max_assoc, max_comm (T (n + 1))]

/-- The supremum over the 128 tiles of each tile's supremum over its 32 rows and 32 lanes, against `0`, is the
    supremum over all 4096 rows and 32 lanes: row `v` lies in tile `v / 32` at position `v % 32`, and `f ≥ 0`. -/
theorem sup_tiles (f : Fin 4096 → Fin 32 → EReal) (hf : ∀ r k, 0 ≤ f r k) :
    max 0 ((Finset.range 128).sup fun t => Finset.univ.sup fun rk : Fin 32 × Fin 32 =>
        if h : 32 * t + rk.1.val < 4096 then f ⟨32 * t + rk.1.val, h⟩ rk.2 else ⊥)
      = Finset.univ.sup fun rk : Fin 4096 × Fin 32 => f rk.1 rk.2 := by
  apply le_antisymm
  · refine max_le ?_ (Finset.sup_le fun t _ => Finset.sup_le fun rk _ => ?_)
    · exact le_trans (hf 0 0)
        (Finset.le_sup (f := fun rk : Fin 4096 × Fin 32 => f rk.1 rk.2) (Finset.mem_univ ((0 : Fin 4096), (0 : Fin 32))))
    · by_cases h : 32 * t + rk.1.val < 4096
      · rw [dif_pos h]
        exact Finset.le_sup (f := fun rk : Fin 4096 × Fin 32 => f rk.1 rk.2)
          (Finset.mem_univ ((⟨32 * t + rk.1.val, h⟩ : Fin 4096), rk.2))
      · rw [dif_neg h]; exact bot_le
  · refine Finset.sup_le fun rk _ => le_max_of_le_right ?_
    obtain ⟨⟨v, hv⟩, k⟩ := rk
    have ht : v / 32 ∈ Finset.range 128 := Finset.mem_range.2 (by omega)
    have hr : v % 32 < 32 := Nat.mod_lt _ (by decide)
    have hlt : 32 * (v / 32) + v % 32 < 4096 := by omega
    have key : f ⟨v, hv⟩ k
        = if h : 32 * (v / 32) + v % 32 < 4096 then f ⟨32 * (v / 32) + v % 32, h⟩ k else ⊥ := by
      rw [dif_pos hlt]
      exact congrArg (fun r => f r k) (Fin.ext (by show v = 32 * (v / 32) + v % 32; omega))
    exact Finset.le_sup_of_le ht
      (Finset.le_sup_of_le (Finset.mem_univ ((⟨v % 32, hr⟩ : Fin 32), k)) (le_of_eq key))

/-- An absolute value `max x (-x)` is nonnegative. -/
theorem max_neg_nonneg (x : EReal) : 0 ≤ max x (-x) := by
  rcases le_total 0 x with h | h
  · exact le_max_of_le_left h
  · exact le_max_of_le_right (EReal.neg_nonneg.mpr h)

/-- The running maximum over all 128 tiles is the supremum over all rows and lanes. -/
theorem runMax_tiles (f : Fin 4096 → Fin 32 → EReal) (hf : ∀ r k, 0 ≤ f r k) :
    runMax (fun t => Finset.univ.sup fun rk : Fin 32 × Fin 32 =>
        if h : 32 * t + rk.1.val < 4096 then f ⟨32 * t + rk.1.val, h⟩ rk.2 else ⊥) 127
      = Finset.univ.sup fun rk : Fin 4096 × Fin 32 => f rk.1 rk.2 :=
  (runMax_eq _ 127).trans (sup_tiles f hf)

end Cert.GroupQuant

end
-- ==== Proof.FrameKI.MaxFinal.lean ====
/-
  The group-maximum launch's result. The result window is written back once, at the last point, and its one block is the
  whole vector [512]; so the result array ends at what the scratch held after the last point. Group by group that is the
  running maximum, started at 0, of the 128 tiles' maxima of |w| — each tile 32 consecutive rows — which is the maximum
  of |w| over all 4096 rows and 32 lanes of the group, |w| being nonnegative.
-/
import proofs.«136674_j88175678587514_2_alg».proof.Proof.FrameKI.MaxValue
import proofs.«136674_j88175678587514_2_alg».proof.Proof.MaxKernel
import proofs.«136674_j88175678587514_2_alg».proof.Proof.GroupMax
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.GroupQuant

/-- The printed index maps over the grid: the weight block of point `t` is row-block `t`; the result's is its one block. -/
theorem max_index : ∀ t : Fin cfg0.N,
    win0_0.index t (0 : Fin 3) = t.val ∧ win0_0.index t (1 : Fin 3) = 0 ∧ win0_0.index t (2 : Fin 3) = 0
    ∧ win0_1.index t (0 : Fin 1) = 0 :=
  (by decide +kernel : ∀ t : Fin grid0.N, _)

theorem lastPoint : 127 < cfg0.N := by rw [show cfg0.N = 128 from N_0]; omega

section anyInstance
variable (V : (c : Dev nD) → (b : Ref sig .tc) → Buf (Elt F) ((c : Thread nD τ).loc b))

/-- The one write-back of the result window writes the scratch's final contents over the whole vector. -/
theorem max_flushed (c : Dev nD) (t : Fin cfg0.N) (hf : (cfg0.win 1).flush t = true) :
    (mdat V c).flushed 1 t = ((cfg0.win 1).blk t).view.read (Elt F) (runningMax V c 127 lastPoint) := by
  have hN : t.val < 128 := lt_of_lt_of_eq t.isLt (show cfg0.N = 128 from N_0)
  have h127 : t.val = 127 := by have := (flush0_1 t).mp hf; omega
  obtain ⟨-, -, -, d0⟩ := max_index t
  obtain ⟨tv, ht⟩ := t
  obtain rfl : tv = 127 := h127
  show (cfg0.win 1).cut (grid0.coords ⟨127, ht⟩) ((mdat V c).after 1 ⟨127, ht⟩) = _
  rw [mafter_1]
  show (heldAt V c 127 ht).1 = _
  rw [heldAt_result]
  funext j
  rw [View.read_apply]
  refine congrArg (runningMax V c 127 lastPoint) ?_
  funext a; apply Fin.ext
  match a with
  | ⟨0, _⟩ => show (j 0).val = win0_1.index ⟨127, ht⟩ (0 : Fin 1) * 512 + 1 * (j 0).val; omega

theorem max_mem_blk (t : Fin cfg0.N) (i : S512.Idx) :
    i ∈ ((cfg0.win 1).blk t).view.set ↔ ∀ a : Fin 1, win0_1.index t a * S512.size a ≤ (i a).val ∧ (i a).val < win0_1.index t a * S512.size a + S512.size a := by
  show i ∈ ((View.whole main_v1).slice (win0_1.rect t)).set ↔ _
  rw [View.set_slice_whole, Rect.mem_set_unit]
  exact Iff.rfl

theorem max_cover (i : S512.Idx) : ∃ t : Fin cfg0.N, (cfg0.win 1).flush t = true ∧ i ∈ ((cfg0.win 1).blk t).view.set := by
  have h0 : (i 0).val < 512 := (i 0).isLt
  obtain ⟨-, -, -, d0⟩ := max_index ⟨127, lastPoint⟩
  refine ⟨⟨127, lastPoint⟩, (flush0_1 _).mpr (by show (127 : ℕ) % 128 = 127; omega), ?_⟩
  rw [max_mem_blk]
  intro a
  match a with
  | ⟨0, _⟩ => show win0_1.index ⟨127, lastPoint⟩ (0 : Fin 1) * 512 ≤ (i 0).val ∧ (i 0).val < win0_1.index ⟨127, lastPoint⟩ (0 : Fin 1) * 512 + 512; omega

/-- The result array after the launch: the scratch's final contents. -/
theorem max_final (c : Dev nD) : (mdat V c).arrAt 1 cfg0.N = runningMax V c 127 lastPoint :=
  (mdat V c).arrAt_eq_of_cover 1 _ (max_flushed V c) max_cover

end anyInstance

/-! ## At the extended reals -/

variable (V : (c : Dev nD) → (b : Ref sig .tc) → Buf (Elt Ideal) ((c : Thread nD τ).loc b))

/-- The absolute value on the extended reals, as the programs spell it. -/
def absE (x : EReal) : EReal := max x (-x)

/-- |w| at entry (r, g, k) of the grouped weight the launch reads. -/
def absAt (c : Dev nD) (g : Fin 512) (r : Fin 4096) (k : Fin 32) : EReal :=
  absE (V c main_v0 (ix3 r g k))

/-- Tile `t`'s maximum of |w| over its 32 rows and the 32 lanes of group `g`. -/
def tileMax (c : Dev nD) (g : Fin 512) (t : ℕ) : EReal :=
  Finset.univ.sup fun rk : Fin 32 × Fin 32 =>
    if h : 32 * t + rk.1.val < 4096 then absAt V c g ⟨32 * t + rk.1.val, h⟩ rk.2 else ⊥

/-- Entry (r, g, k) of point `t`'s weight block is entry (32t + r, g, k) of the weight. -/
theorem max_block_apply (c : Dev nD) (t : Fin cfg0.N) (r : Fin 32) (g : Fin 512) (k : Fin 32) (h : 32 * t.val + r.val < 4096) :
    (mblk V c 0 t : Vec Ideal S32x512x32 .f32) (ix3 r g k) = V c main_v0 (ix3 (⟨32 * t.val + r.val, h⟩ : Fin 4096) g k) := by
  obtain ⟨a0, a1, a2, -⟩ := max_index t
  show V c main_v0 (((cfg0.win 0).blk t).view.emb (ix3 r g k)) = _
  refine congrArg (V c main_v0) ?_
  funext a; apply Fin.ext
  match a with
  | ⟨0, _⟩ => show win0_0.index t (0 : Fin 3) * 32 + 1 * r.val = 32 * t.val + r.val; omega
  | ⟨1, _⟩ => show win0_0.index t (1 : Fin 3) * 512 + 1 * g.val = g.val; omega
  | ⟨2, _⟩ => show win0_0.index t (2 : Fin 3) * 32 + 1 * k.val = k.val; omega

/-- The body's tile maximum at point `t` is `tileMax` at `t`. -/
theorem tile_of_block (c : Dev nD) (t : Fin cfg0.N) (g : Fin 512) :
    (Finset.univ.sup fun rk : Fin 32 × Fin 32 => absE ((mblk V c 0 t : Vec Ideal S32x512x32 .f32) (ix3 rk.1 g rk.2)))
      = tileMax V c g t.val := by
  have hN : t.val < 128 := lt_of_lt_of_eq t.isLt (show cfg0.N = 128 from N_0)
  unfold tileMax
  refine Finset.sup_congr rfl fun rk _ => ?_
  have hr : rk.1.val < 32 := rk.1.isLt
  have h : 32 * t.val + rk.1.val < 4096 := by omega
  rw [dif_pos h, max_block_apply V c t rk.1 g rk.2 h]
  rfl

/-- The scratch after point `n`, at group `g`: the running maximum of the tiles' maxima, started at 0. -/
theorem runningMax_apply (c : Dev nD) (g : Fin 512) :
    ∀ (n : ℕ) (hn : n < cfg0.N), (runningMax V c n hn : Vec Ideal S512 .f32) (ix1 g) = runMax (tileMax V c g) n
  | 0, hn => by
    show k0_pay2 (F := Ideal) (mblk V c 0 ⟨0, hn⟩) (k0_pay1 (F := Ideal)) (ix1 g) = max 0 (tileMax V c g 0)
    rw [tile_max_apply, tile_zero]
    exact congrArg (max 0) (tile_of_block V c ⟨0, hn⟩ g)
  | n + 1, hn => by
    show k0_pay2 (F := Ideal) (mblk V c 0 ⟨n + 1, hn⟩) (runningMax V c n (Nat.lt_of_succ_lt hn)) (ix1 g)
      = max (runMax (tileMax V c g) n) (tileMax V c g (n + 1))
    rw [tile_max_apply, runningMax_apply c g n (Nat.lt_of_succ_lt hn)]
    exact congrArg (max (runMax (tileMax V c g) n)) (tile_of_block V c ⟨n + 1, hn⟩ g)

/-- THE GROUP MAXIMUM: after the launch, entry `g` of the result is the supremum of |w| over the group's rows and lanes. -/
theorem max_value (c : Dev nD) (g : Fin 512) :
    ((mdat V c).arrAt 1 cfg0.N : Vec Ideal S512 .f32) (ix1 g) = Finset.univ.sup fun rk : Fin 4096 × Fin 32 => absAt V c g rk.1 rk.2 := by
  rw [max_final, runningMax_apply]
  exact runMax_tiles (absAt V c g) (fun r k => by unfold absAt absE; exact max_neg_nonneg _)

end Cert.KernelIdeal.Hand

end
-- ==== Proof.FrameKI.Results.lean ====
/-
  The kernel program's three results, read off the final buffer contents. With A0, A1, A2 the argument arrays:
  the shift vector is clamp(0.5·tanh(A1) + A2, −0.5, 0.5), computed by host operations alone; the exponent vector is
  the host's "floor(log(x)/log 2) where x > 0, else 0" of the group-maximum launch's result x; the scale is
  exp(0.693147182·exponent); and the quantized weight is the reshape to [4096, 16384] of the quantize launch's result —
  the scalar quantizer applied entry by entry to the grouped weight with each group's scale and shift.
-/
import proofs.«136674_j88175678587514_2_alg».proof.Proof.FrameKI.Run
import proofs.«136674_j88175678587514_2_alg».proof.Proof.FrameKI.QuantValue
import proofs.«136674_j88175678587514_2_alg».proof.Proof.FrameKI.MaxFinal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo Cert.GroupQuant

/-! ## The host stretches, over any buffer contents `W` -/

section stretches
variable (W : Valuation τ sig (Elt Ideal))

/-- The shift: 0.5·tanh(a1) + a2, clamped to [−0.5, 0.5]. -/
def shiftOf (a1 a2 : FVec Ideal S512 .f32) : FVec Ideal S512 .f32 :=
  minimumf (broadcastInDim S512 ![] bcast_S_S512 (id (constant (F := Ideal) S_ .f32 0x3F000000#32)))
    (maximumf (broadcastInDim S512 ![] bcast_S_S512 (id (constant (F := Ideal) S_ .f32 0xBF000000#32)))
      (addf (mulf (broadcastInDim S512 ![] bcast_S_S512 (constant (F := Ideal) S_ .f32 0x3F000000#32)) (Host.tanh (F := Ideal) a1)) a2))

/-- The exponent: floor(log x / log 2) where x > 0, else 0. -/
def exponentOf (x : FVec Ideal S512 .f32) : FVec Ideal S512 .f32 :=
  select (cmpf .ogt x (broadcastInDim S512 ![] bcast_S_S512 (constant (F := Ideal) S_ .f32 0x00000000#32)))
    (Host.floor (F := Ideal) (Host.divf (F := Ideal) (Host.log (F := Ideal) x) (broadcastInDim S512 ![] bcast_S_S512 (Host.log (F := Ideal) (constant (F := Ideal) S_ .f32 0x40000000#32)))))
    (broadcastInDim S512 ![] bcast_S_S512 (id (constant (F := Ideal) S_ .f32 0x00000000#32)))

/-- The scale: exp(0.693147182 · exponent). -/
def scaleOf (e : FVec Ideal S512 .f32) : FVec Ideal S512 .f32 :=
  Host.exp (F := Ideal) (mulf (broadcastInDim S512 ![] bcast_S_S512 (constant (F := Ideal) S_ .f32 0x3F317218#32)) e)

theorem grouped_after : StableHlo.after hostOps0 W (Proc.devRef .tc main_v0)
    = shapeCast S4096x512x32 (W (Proc.devRef .tc main_arg0)) shapeCasts_S4096x16384_S4096x512x32 := by
  after_results_simp <;> rfl

theorem shift_after : StableHlo.after hostOps1_1 (StableHlo.after hostOps1 W) (Proc.devRef .tc main_v6)
    = shiftOf (W (Proc.devRef .tc main_arg1)) (W (Proc.devRef .tc main_arg2)) := by
  unfold shiftOf
  after_results_simp <;> rfl

theorem exponent_after : StableHlo.after hostOps1_3 (StableHlo.after hostOps1_2 W) (Proc.devRef .tc main_v14)
    = exponentOf (W (Proc.devRef .tc main_v1)) := by
  unfold exponentOf
  after_results_simp <;> rfl

theorem scale_after : StableHlo.after hostOps1_4 W (Proc.devRef .tc main_v17) = scaleOf (W (Proc.devRef .tc main_v14)) := by
  unfold scaleOf
  after_results_simp <;> rfl

theorem ungrouped_after : StableHlo.after hostOps2 W (Proc.devRef .tc main_v19)
    = shapeCast S4096x16384 (W (Proc.devRef .tc main_v18)) shapeCasts_S4096x512x32_S4096x16384 := by
  after_results_simp <;> rfl

end stretches

/-! ## The fold, buffer by buffer -/

variable (m : (ℓ : Loc nD τ sig) → Buf (Elt Ideal) ℓ)

/-- The grouped weight the launches read: the reshape of the weight argument. -/
theorem grouped_eq (c : Dev nD) : B1 m c (Proc.devRef .tc main_v0)
    = shapeCast S4096x512x32 (m ((c : Thread nD τ).loc main_arg0)) shapeCasts_S4096x16384_S4096x512x32 :=
  grouped_after (B0 m c)

/-- The group-maximum launch leaves the grouped weight in place. -/
theorem grouped_kept (c : Dev nD) : B2 m c (Proc.devRef .tc main_v0) = B1 m c (Proc.devRef .tc main_v0) :=
  (B2_arr m c 0).trans (((mdat (R1 m) c).arrAt_in 0 rfl _).trans (mdat_A (R1 m) c 0))

theorem grouped_at_quant (c : Dev nD) : B7 m c (Proc.devRef .tc main_v0) = B1 m c (Proc.devRef .tc main_v0) :=
  (StableHlo.after_of_writes_sub hostOps1_4 _ hostOps1_4_writes (by decide : main_v0 ∉ hostOps1_4_W)).trans <|
  (StableHlo.after_of_writes_sub hostOps1_3 _ hostOps1_3_writes (by decide : main_v0 ∉ hostOps1_3_W)).trans <|
  (StableHlo.after_of_writes_sub hostOps1_2 _ hostOps1_2_writes (by decide : main_v0 ∉ hostOps1_2_W)).trans <|
  (StableHlo.after_of_writes_sub hostOps1_1 _ hostOps1_1_writes (by decide : main_v0 ∉ hostOps1_1_W)).trans <|
  (StableHlo.after_of_writes_sub hostOps1 _ hostOps1_writes (by decide : main_v0 ∉ hostOps1_W)).trans (grouped_kept m c)

/-- The shift vector, from the two small arguments. -/
theorem shift_eq (c : Dev nD) : B4 m c (Proc.devRef .tc main_v6)
    = shiftOf (m ((c : Thread nD τ).loc main_arg1)) (m ((c : Thread nD τ).loc main_arg2)) := by
  refine (shift_after (B2 m c)).trans ?_
  have e1 : B2 m c (Proc.devRef .tc main_arg1) = m ((c : Thread nD τ).loc main_arg1) :=
    (B2_of_ne m c main_arg1 (by decide)).trans (StableHlo.after_of_writes_sub hostOps0 _ hostOps0_writes (by decide : main_arg1 ∉ hostOps0_W))
  have e2 : B2 m c (Proc.devRef .tc main_arg2) = m ((c : Thread nD τ).loc main_arg2) :=
    (B2_of_ne m c main_arg2 (by decide)).trans (StableHlo.after_of_writes_sub hostOps0 _ hostOps0_writes (by decide : main_arg2 ∉ hostOps0_W))
  rw [e1, e2]

theorem shift_at_quant (c : Dev nD) : B7 m c (Proc.devRef .tc main_v6) = B4 m c (Proc.devRef .tc main_v6) :=
  (StableHlo.after_of_writes_sub hostOps1_4 _ hostOps1_4_writes (by decide : main_v6 ∉ hostOps1_4_W)).trans <|
  (StableHlo.after_of_writes_sub hostOps1_3 _ hostOps1_3_writes (by decide : main_v6 ∉ hostOps1_3_W)).trans <|
  (StableHlo.after_of_writes_sub hostOps1_2 _ hostOps1_2_writes (by decide : main_v6 ∉ hostOps1_2_W)).trans rfl

/-- The exponent vector, from the group-maximum launch's result. -/
theorem exponent_eq (c : Dev nD) : B6 m c (Proc.devRef .tc main_v14) = exponentOf (B2 m c (Proc.devRef .tc main_v1)) := by
  refine (exponent_after (B4 m c)).trans ?_
  have e : B4 m c (Proc.devRef .tc main_v1) = B2 m c (Proc.devRef .tc main_v1) :=
    (StableHlo.after_of_writes_sub hostOps1_1 _ hostOps1_1_writes (by decide : main_v1 ∉ hostOps1_1_W)).trans
      (StableHlo.after_of_writes_sub hostOps1 _ hostOps1_writes (by decide : main_v1 ∉ hostOps1_W))
  rw [e]

/-- The scale vector. -/
theorem scale_eq (c : Dev nD) : B7 m c (Proc.devRef .tc main_v17) = scaleOf (B6 m c (Proc.devRef .tc main_v14)) :=
  scale_after (B6 m c)

/-! ## The three results at the end -/

/-- The group-maximum launch's result at a group: the supremum of |w| over the group's rows and lanes. -/
theorem groupMax_apply (c : Dev nD) (g : Fin 512) :
    (B2 m c (Proc.devRef .tc main_v1) : Vec Ideal S512 .f32) (ix1 g)
      = Finset.univ.sup fun rk : Fin 4096 × Fin 32 => absAt (R1 m) c g rk.1 rk.2 :=
  (congrFun (B2_arr m c 1) (ix1 g)).trans (max_value (R1 m) c g)

theorem result_shift (c : Dev nD) : B9 m c (Proc.devRef .tc main_v6)
    = shiftOf (m ((c : Thread nD τ).loc main_arg1)) (m ((c : Thread nD τ).loc main_arg2)) :=
  (StableHlo.after_of_writes_sub hostOps2 _ hostOps2_writes (by decide : main_v6 ∉ hostOps2_W)).trans <|
  (B8_arr m c 2).trans <| ((qdat (R7 m) c).arrAt_in 2 rfl _).trans <| (qdat_A (R7 m) c 2).trans <|
  (shift_at_quant m c).trans (shift_eq m c)

theorem result_exponent (c : Dev nD) : B9 m c (Proc.devRef .tc main_v14) = exponentOf (B2 m c (Proc.devRef .tc main_v1)) :=
  (StableHlo.after_of_writes_sub hostOps2 _ hostOps2_writes (by decide : main_v14 ∉ hostOps2_W)).trans <|
  (B8_of_ne m c main_v14 (by decide)).trans <|
  (StableHlo.after_of_writes_sub hostOps1_4 _ hostOps1_4_writes (by decide : main_v14 ∉ hostOps1_4_W)).trans (exponent_eq m c)

theorem result_quant (c : Dev nD) : B9 m c (Proc.devRef .tc main_v19)
    = shapeCast S4096x16384
        (quantAll (B1 m c (Proc.devRef .tc main_v0)) (scaleOf (exponentOf (B2 m c (Proc.devRef .tc main_v1))))
          (shiftOf (m ((c : Thread nD τ).loc main_arg1)) (m ((c : Thread nD τ).loc main_arg2))))
        shapeCasts_S4096x512x32_S4096x16384 := by
  refine (ungrouped_after (B8 m c)).trans ?_
  have e18 : B8 m c (Proc.devRef .tc main_v18)
      = quantAll (R7 m c main_v0) (R7 m c main_v17) (R7 m c main_v6) :=
    (B8_arr m c 3).trans (quant_final (R7 m) c)
  have e0 : R7 m c main_v0 = B1 m c (Proc.devRef .tc main_v0) := grouped_at_quant m c
  have e17 : R7 m c main_v17 = scaleOf (exponentOf (B2 m c (Proc.devRef .tc main_v1))) :=
    (scale_eq m c).trans (congrArg scaleOf (exponent_eq m c))
  have e6 : R7 m c main_v6 = shiftOf (m ((c : Thread nD τ).loc main_arg1)) (m ((c : Thread nD τ).loc main_arg2)) :=
    (shift_at_quant m c).trans (shift_eq m c)
  rw [e18, e0, e17, e6]

end Cert.KernelIdeal.Hand

end
-- ==== Proof.QuantReference.lean ====
/-
  The reference's quantise stage, read at an index. `refQuant w3 s e` is the term the reference's run states for the
  `[4096, 512, 32]` array it reshapes into its first result, with the grouped weight `w3`, the per-group scale `s`
  and the per-group shift `e` as variables. At `(r, g, k)` it is the scalar function `quant` of the weight there and
  of group `g`'s scale and shift: the two per-group vectors are broadcast `[512] → [1, 512, 1] → [4096, 512, 32]`,
  the literals are splats, and every other operation is elementwise.
-/
import proofs.«136674_j88175678587514_2_alg».proof.Proof.Gen.ReferenceIdeal
import proofs.«136674_j88175678587514_2_alg».proof.Proof.ScalarQuant
import Idealize.ShloMosaic.Lib.ValueLayout

noncomputable section

namespace Cert.GroupQuant

open Idealize.ShloMosaic Idealize.ShloMosaic.ValueIdx
open Cert.ReferenceIdeal Cert.ReferenceIdeal.Gen

/-- The reference's quantised array as a function of the grouped weight and the two per-group vectors. -/
def refQuant (w3 : FVec Ideal S4096x512x32 .f32) (s e : FVec Ideal S512 .f32) : FVec Ideal S4096x512x32 .f32 :=
  mulf (mulf (Host.sign (F := Ideal) w3) (broadcastInDim S4096x512x32 ![0, 1, 2] bcast_S1x512x1_S4096x512x32_0_1_2 (broadcastInDim S1x512x1 ![1] bcast_S512_S1x512x1_1 s))) (Host.divf (F := Ideal) (Host.roundeven (F := Ideal) (mulf (minimumf (broadcastInDim S4096x512x32 ![] bcast_S_S4096x512x32 (id (constant (F := Ideal) S_ .f32 0x3F800000#32))) (maximumf (broadcastInDim S4096x512x32 ![] bcast_S_S4096x512x32 (id (constant (F := Ideal) S_ .f32 0x00000000#32))) (addf (minimumf (broadcastInDim S4096x512x32 ![] bcast_S_S4096x512x32 (id (constant (F := Ideal) S_ .f32 0x3F800000#32))) (maximumf (broadcastInDim S4096x512x32 ![] bcast_S_S4096x512x32 (id (constant (F := Ideal) S_ .f32 0x00000000#32))) (Host.divf (F := Ideal) (Host.absf (F := Ideal) w3) (broadcastInDim S4096x512x32 ![0, 1, 2] bcast_S1x512x1_S4096x512x32_0_1_2 (broadcastInDim S1x512x1 ![1] bcast_S512_S1x512x1_1 s))))) (broadcastInDim S4096x512x32 ![0, 1, 2] bcast_S1x512x1_S4096x512x32_0_1_2 (broadcastInDim S1x512x1 ![1] bcast_S512_S1x512x1_1 e))))) (broadcastInDim S4096x512x32 ![] bcast_S_S4096x512x32 (constant (F := Ideal) S_ .f32 0x41000000#32)))) (broadcastInDim S4096x512x32 ![] bcast_S_S4096x512x32 (constant (F := Ideal) S_ .f32 0x41000000#32)))

/-- A per-group vector broadcast `[512] → [1, 512, 1] → [4096, 512, 32]` reads, at `(r, g, k)`, the vector at `g`. -/
theorem ref_group_apply {α : Type} (v : S512.Idx → α) (r : Fin 4096) (g : Fin 512) (k : Fin 32) :
    broadcastInDim S4096x512x32 ![0, 1, 2] bcast_S1x512x1_S4096x512x32_0_1_2
        (broadcastInDim S1x512x1 ![1] bcast_S512_S1x512x1_1 v) (ix3 r g k) = v (ix1 g) :=
  (broadcastInDim_apply _ bcast_S1x512x1_S4096x512x32_0_1_2 _ (ix3 r g k) (ix3 (0 : Fin 1) g (0 : Fin 1)) (fun a =>
    match a with
    | ⟨0, _⟩ => by show 0 = if (1 : Nat) = 1 then 0 else r.val; rw [if_pos rfl]
    | ⟨1, _⟩ => by show g.val = if (512 : Nat) = 1 then 0 else g.val; rw [if_neg (by decide)]
    | ⟨2, _⟩ => by show 0 = if (1 : Nat) = 1 then 0 else k.val; rw [if_pos rfl])).trans
  (broadcastInDim_apply _ bcast_S512_S1x512x1_1 v (ix3 (0 : Fin 1) g (0 : Fin 1)) (ix1 g) (fun a =>
    match a with
    | ⟨0, _⟩ => by show g.val = if (512 : Nat) = 1 then 0 else g.val; rw [if_neg (by decide)]))

/-- THE REFERENCE'S QUANTISED ARRAY AT AN INDEX: `quant` of the weight there with group `g`'s scale and shift. -/
theorem ref_quant_apply (w3 : FVec Ideal S4096x512x32 .f32) (s e : FVec Ideal S512 .f32)
    (r : Fin 4096) (g : Fin 512) (k : Fin 32) :
    refQuant w3 s e (ix3 r g k) = quant (w3 (ix3 r g k)) (s (ix1 g)) (e (ix1 g)) := by
  unfold refQuant
  simp only [mulf_apply, addf_apply, maximumf_apply, minimumf_apply, Host.divf, Host.roundeven]
  rw [ref_group_apply s r g k, ref_group_apply e r g k]
  rfl

end Cert.GroupQuant

end
-- ==== Proof.MaxReference.lean ====
/-
  The reference's group maximum, read at a group: one maximum-reduction from `-∞` of `|w|` over the rows and the
  lanes of the `[4096, 512, 32]` grouped weight is, at group `g`, the supremum of `|w|` over all (row, lane) pairs of
  that group.
-/
import proofs.«136674_j88175678587514_2_alg».proof.Proof.Gen.ReferenceIdeal
import proofs.«136674_j88175678587514_2_alg».proof.Proof.SupFold

noncomputable section

namespace Cert.GroupQuant

open Idealize.ShloMosaic Idealize.ShloMosaic.ValueIdx
open Cert.ReferenceIdeal Cert.ReferenceIdeal.Gen

/-- Dropping the row and the lane of `(a, b, c)` leaves the group `b`. -/
theorem drop_row_lane (a : Fin 4096) (b : Fin 512) (c : Fin 32) :
    reducesTo_S4096x512x32_S512_d0_2.drop (ix3 a b c) = ix1 b := by
  funext d
  match d with
  | ⟨0, _⟩ => rfl

/-- THE REFERENCE'S GROUP MAXIMUM AT A GROUP: the supremum of `|w|` over the group's rows and lanes. -/
theorem ref_max_apply (w3 : FVec Ideal S4096x512x32 .f32) (g : Fin 512) :
    Host.reduce (FloatOps.maximumf (F := Ideal) (φ := .f32)) (Host.absf (F := Ideal) w3) (constant (F := Ideal) S_ .f32 0xFF800000#32)
        reducesTo_S4096x512x32_S512_d0_2 h_S_ (ix1 g)
      = Finset.univ.sup fun rk : Fin 4096 × Fin 32 => max (w3 (ix3 rk.1 g rk.2)) (-(w3 (ix3 rk.1 g rk.2))) :=
  (hostReduce_max_eq_sup (Host.absf (F := Ideal) w3) reducesTo_S4096x512x32_S512_d0_2 h_S_ (ix1 g)).trans
    (sup_fibre _ _ (fun rk : Fin 4096 × Fin 32 => ix3 rk.1 g rk.2) (fun rk => drop_row_lane rk.1 g rk.2) (fun i hi => by
      obtain ⟨a, b, c, rfl⟩ : ∃ (a : Fin 4096) (b : Fin 512) (c : Fin 32), i = ix3 a b c := ⟨i 0, i 1, i 2, eq_ix3 i⟩
      rw [drop_row_lane] at hi
      have h1 : b = g := congrFun hi 0
      subst h1
      exact ⟨(a, c), rfl⟩) (Host.absf (F := Ideal) w3))

end Cert.GroupQuant

end
-- ==== Proof.RefRead.lean ====
/-
  The reference's run, read one operation at a time (the generated read-at-an-index lemmas), re-exported for
  the modules that compare the reference's results with the kernel's.
-/
import proofs.«136674_j88175678587514_2_alg».proof.Proof.Gen.ReferenceIdeal.Read
-- ==== Proof.Bridge.lean ====
/-
  The two programs compute the same three results. The shift is the same host arithmetic of the same two arguments.
  The exponent is the same host arithmetic of the group maximum, and the two group maxima agree: the kernel's running
  maximum over 128 tiles, started at 0, and the reference's one reduction over rows and lanes, started at −∞, are both
  the supremum of |w| over the group (|w| ≥ 0). The quantized weight agrees entry by entry: both sides are the scalar
  quantizer of the same weight entry with the same group's scale and shift (the kernel's sign by comparisons is the
  reference's sign function).
-/
import proofs.«136674_j88175678587514_2_alg».proof.Proof.FrameKI.Results
import proofs.«136674_j88175678587514_2_alg».proof.Proof.QuantReference
import proofs.«136674_j88175678587514_2_alg».proof.Proof.MaxReference
import proofs.«136674_j88175678587514_2_alg».proof.Proof.RefRead

set_option maxRecDepth 16384

noncomputable section

namespace Cert.GroupQuant

open Idealize.ShloMosaic Idealize.ShloMosaic.TcCoe Idealize.ShloMosaic.ValueIdx Idealize.SL.Sem
open Cert.KernelIdeal.Hand

variable (m : (ℓ : Loc Cert.KernelIdeal.nD Cert.KernelIdeal.τ Cert.KernelIdeal.sig) → Buf (Elt Ideal) ℓ) (c : Dev Cert.KernelIdeal.nD)

/-- The reference's group maximum of the grouped weight. -/
def refMax (w3 : FVec Ideal Cert.ReferenceIdeal.S4096x512x32 .f32) : FVec Ideal Cert.ReferenceIdeal.S512 .f32 :=
  Host.reduce (FloatOps.maximumf (F := Ideal) (φ := .f32)) (Host.absf (F := Ideal) w3) (constant (F := Ideal) Cert.ReferenceIdeal.S_ .f32 0xFF800000#32)
    Cert.ReferenceIdeal.Gen.reducesTo_S4096x512x32_S512_d0_2 Cert.ReferenceIdeal.Gen.h_S_

/-- The grouped weight, as either program reshapes it from the argument. -/
abbrev grouped : FVec Ideal Cert.ReferenceIdeal.S4096x512x32 .f32 :=
  shapeCast Cert.ReferenceIdeal.S4096x512x32 (m ((c : Thread Cert.KernelIdeal.nD Cert.KernelIdeal.τ).loc Cert.KernelIdeal.main_arg0)) Cert.ReferenceIdeal.Gen.shapeCasts_S4096x16384_S4096x512x32

/-- THE GROUP MAXIMA AGREE. -/
theorem max_agree : refMax (grouped m c) = B2 m c (Proc.devRef .tc Cert.KernelIdeal.main_v1) := by
  funext i
  obtain ⟨g, rfl⟩ : ∃ g : Fin 512, i = ix1 g := ⟨i 0, eq_ix1 i⟩
  have h1 := ref_max_apply (grouped m c) g
  have h2 := groupMax_apply m c g
  have h3 : (Finset.univ.sup fun rk : Fin 4096 × Fin 32 =>
        max (grouped m c (ix3 rk.1 g rk.2)) (-(grouped m c (ix3 rk.1 g rk.2))))
      = Finset.univ.sup fun rk : Fin 4096 × Fin 32 => absAt (R1 m) c g rk.1 rk.2 := by
    refine Finset.sup_congr rfl fun rk _ => ?_
    unfold absAt absE
    rw [show R1 m c Cert.KernelIdeal.main_v0 = B1 m c (Proc.devRef .tc Cert.KernelIdeal.main_v0) from rfl, grouped_eq]
  exact h1.trans (h3.trans h2.symm)

/-- THE QUANTIZED WEIGHTS AGREE, before the reshape back. -/
theorem quant_agree :
    refQuant (grouped m c) (scaleOf (exponentOf (refMax (grouped m c))))
        (shiftOf (m ((c : Thread Cert.KernelIdeal.nD Cert.KernelIdeal.τ).loc Cert.KernelIdeal.main_arg1)) (m ((c : Thread Cert.KernelIdeal.nD Cert.KernelIdeal.τ).loc Cert.KernelIdeal.main_arg2)))
      = quantAll (B1 m c (Proc.devRef .tc Cert.KernelIdeal.main_v0)) (scaleOf (exponentOf (B2 m c (Proc.devRef .tc Cert.KernelIdeal.main_v1))))
          (shiftOf (m ((c : Thread Cert.KernelIdeal.nD Cert.KernelIdeal.τ).loc Cert.KernelIdeal.main_arg1)) (m ((c : Thread Cert.KernelIdeal.nD Cert.KernelIdeal.τ).loc Cert.KernelIdeal.main_arg2))) := by
  rw [max_agree, grouped_eq]
  funext i
  obtain ⟨r, g, k, rfl⟩ : ∃ (r : Fin 4096) (g : Fin 512) (k : Fin 32), i = ix3 r g k := ⟨i 0, i 1, i 2, eq_ix3 i⟩
  rw [ref_quant_apply]
  rfl

end Cert.GroupQuant

end
-- ==== Proof.SignRule.lean ====
/-
  The one sanctioned rewrite between the kernel as printed and the kernel as read on extended reals. The kernel forms
  "`1.0` carrying `w`'s sign bit" by reading the weight's word; on extended reals, which have no words, that window is
  read as the select "`-1` where `w < 0`, else `1`". On bit patterns the window is `-1.0`'s or `1.0`'s pattern by the
  sign bit; on extended reals the select is `-1` or `1` by the order. The two part only at a zero with its sign bit set
  and at a not-a-number with its sign bit clear; the kernel uses the value only where `|w| > 0` and returns `w` itself
  elsewhere, so the zero's parting never reaches its result.
-/
import proofs.«136674_j88175678587514_2_alg».proof.Defs

namespace Cert.GroupQuant

open Idealize.ShloMosaic

/-- The rewrite's statement at the tile's shape `[16, 512, 32]` and at f32: both readings of the window, each as the
    function of the weight it is. -/
theorem preserves_sign : Cert.preserves_Kernel_KernelIdeal :=
  IdealRules.sign_bit.statement Cert.KernelIdeal.S16x512x32 .f32

end Cert.GroupQuant
-- ==== Proof.lean ====
/-
  Equivalence of a shared-exponent group quantizer with its reference, over the extended reals.

  The weight [4096, 16384] is read as [4096, 512, 32]: 512 groups of 32 lanes in each of 4096 rows. For each group g the
  exponent is floor(log2 M_g) where M_g = max over all rows and lanes of |w| is positive, and 0 otherwise; the scale is
  s_g = 2^exponent; the shift e_g is 0.5·tanh(p_g) + d_g clamped to [−0.5, 0.5]. Every entry is then quantized to
  sign(w)·s_g·round_even(clip(clip(|w|/s_g, 0, 1) + e_g, 0, 1)·8)/8. The kernel computes M in one launch of 128 grid
  points (32 rows each, a running maximum kept in scratch from an initial 0) and the quantized weight in a second launch
  of 256 grid points (16 rows each); the reference computes both with whole-array operations. The three results — the
  quantized weight, the shift vector, the exponent vector — agree:
    * M agrees because a running maximum from 0 over tiles and one reduction from −∞ are both the supremum of the
      nonnegative |w| over the group;
    * everything downstream of M, and the shift, is the same arithmetic on both sides; the kernel's sign, spelt by
      comparisons, is the reference's sign function.
  No finiteness of the inputs is used. Each program also runs to its end, faults nowhere and leaves its three argument
  arrays as launched.
-/
import proofs.«136674_j88175678587514_2_alg».proof.Defs
import proofs.«136674_j88175678587514_2_alg».proof.Proof.FrameK.Run
import proofs.«136674_j88175678587514_2_alg».proof.Proof.FrameKI.Results
import proofs.«136674_j88175678587514_2_alg».proof.Proof.Bridge
import proofs.«136674_j88175678587514_2_alg».proof.Proof.SignRule
import proofs.«136674_j88175678587514_2_alg».proof.Proof.RefRead
import proofs.«136674_j88175678587514_2_alg».proof.Proof.Gen.Kernel
import proofs.«136674_j88175678587514_2_alg».proof.Proof.Gen.KernelIdeal
import proofs.«136674_j88175678587514_2_alg».proof.Proof.Gen.ReferenceIdeal
import proofs.«136674_j88175678587514_2_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Hand Cert.GroupQuant

/-- The word-level kernel program runs and keeps its arguments. -/
theorem frame_k : Cert.frame_Kernel := fun m ρ _ => Cert.Kernel.Hand.frame m ρ
/-- So does the idealized kernel program. -/
theorem frame_ki : Cert.frame_KernelIdeal := fun m ρ _ => Cert.KernelIdeal.Hand.frame m ρ
/-- And the idealized reference: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The one rewrite of the idealization: 1.0 carrying x's sign bit, read as a choice on x < 0. -/
theorem preserves : Cert.preserves_Kernel_KernelIdeal := preserves_sign

/-- From memories agreeing on the arguments both idealized programs end with the same three results. -/
theorem algebraic : Cert.algebraic_KernelIdeal_ReferenceIdeal := by
  intro m ρ m' ρ' _ hagree
  refine ⟨fun c => B9 m c (Proc.devRef .tc Cert.KernelIdeal.main_v19), fun c => B9 m c (Proc.devRef .tc Cert.KernelIdeal.main_v6),
    fun c => B9 m c (Proc.devRef .tc Cert.KernelIdeal.main_v14), ?_, ?_⟩
  · exact (θ_run Cert.KernelIdeal.defs _ _).mono (fun r h c =>
      ⟨h c _ (mem_outer Cert.KernelIdeal.main_v19 (by decide)), h c _ (mem_outer Cert.KernelIdeal.main_v6 (by decide)), h c _ (mem_outer Cert.KernelIdeal.main_v14 (by decide)),
       (h c _ (mem_outer Cert.KernelIdeal.main_arg0 (by decide))).trans (B9_untouched m c Cert.KernelIdeal.main_arg0 (by decide) (by decide) (by decide) (by decide) (by decide) (by decide) (by decide) (by decide) (by decide)),
       (h c _ (mem_outer Cert.KernelIdeal.main_arg1 (by decide))).trans (B9_untouched m c Cert.KernelIdeal.main_arg1 (by decide) (by decide) (by decide) (by decide) (by decide) (by decide) (by decide) (by decide) (by decide)),
       (h c _ (mem_outer Cert.KernelIdeal.main_arg2 (by decide))).trans (B9_untouched m c Cert.KernelIdeal.main_arg2 (by decide) (by decide) (by decide) (by decide) (by decide) (by decide) (by decide) (by decide) (by decide))⟩)
      (run_to_end m ρ)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [(hagree c).1, (hagree c).2.1, (hagree c).2.2]
      exact (congrArg (fun x => shapeCast Cert.KernelIdeal.S4096x16384 x Cert.KernelIdeal.Gen.shapeCasts_S4096x512x32_S4096x16384) (quant_agree m c)).trans
        (result_quant m c).symm
    · rw [(hagree c).2.1, (hagree c).2.2]
      exact (result_shift m c).symm
    · rw [(hagree c).1]
      exact (congrArg exponentOf (max_agree m c)).trans (result_exponent m c).symm

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
